-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S512x36x1024 : S_.BroadcastsInDim S512x36x1024 (![] : Fin 0 → Fin S512x36x1024.rank)
  reducesTo_S512x36x1024_S_d0_1_2 : S512x36x1024.ReducesTo [0, 1, 2] S_
  h_S_ : 0 < S_.numel
  bcast_S_S512x36x36 : S_.BroadcastsInDim S512x36x36 (![] : Fin 0 → Fin S512x36x36.rank)
  reducesTo_S512x36x36_S_d0_1_2 : S512x36x36.ReducesTo [0, 1, 2] S_
  bcast_S_S512x36 : S_.BroadcastsInDim S512x36 (![] : Fin 0 → Fin S512x36.rank)
  reducesTo_S512x36_S_d0_1 : S512x36.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_arg11 : FVec F S1024 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x4096 .f32) (main_arg9 : FVec F S4096 .f32) (main_arg10 : FVec F S4096x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4096 .f32 := Host.absf main_arg8
  let main_cst_14 : FVec F S_ .f32 := constant S_ .f32 0x7F800000#32
  let main_v40 : FVec F S1024x4096 .f32 := broadcastInDim S1024x4096 ![] bcast_S_S1024x4096 main_cst_14
  let main_v41 : IVec S1024x4096 1 := cmpf .olt main_v39 main_v40
  let main_c_15 : IVec S_ 1 := constantI S_ 1 1#1
  let main_v42 : IVec S_ 1 := (fun x v => Host.reduce IntOp.andi x v reducesTo_S1024x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024x4096 .f32) (main_arg9 : FVec F S4096 .f32) (main_arg10 : FVec F S4096x1024 .f32) (main_arg11 : FVec F S1024 .f32) (main_v13 : IVec S_ 1) (main_v16 : IVec S512x36 1) : IVec S_ 1 :=
  let main_c_5 : IVec S_ 1 := constantI S_ 1 1#1
  let main_v17 : IVec S_ 1 := (fun x v => Host.reduce IntOp.andi x v reducesTo_S512x36_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S512x36x1024 .f32) (main_arg1 : FVec F S512x36x1024 .f32) (main_arg2 : FVec F S512x36x36 .f32) (main_arg3 : FVec F S512x36 .f32) (main_arg4 : FVec F S1024 .f32) (main_arg5 : FVec F S1024 .f32) (main_arg6 : FVec F S1024 .f32) (main_arg7 : FVec F S1024 .f32) (main_arg8 : FVec F S1024x4096 .f32) (main_arg9 : FVec F S4096 .f32) (main_arg10 : FVec F S4096x1024 .f32) (main_arg11 : FVec F S1024 .f32) : IVec S_ 1 :=
  let main_v0 : FVec F S512x36x1024 .f32 := Host.absf main_arg0
  let main_cst : FVec F S_ .f32 := constant S_ .f32 0x7F800000#32
  let main_v1 : FVec F S512x36x1024 .f32 := broadcastInDim S512x36x1024 ![] bcast_S_S512x36x1024 main_cst
  let main_v2 : IVec S512x36x1024 1 := cmpf .olt main_v0 main_v1
  let main_c : IVec S_ 1 := constantI S_ 1 1#1
  let main_v3 : IVec S_ 1 := (fun x v => Host.reduce IntOp.andi x v reducesTo_S512x36x1024_S_d0_1_2 h_S_) main_v2 main_c
  let main_v4 : FVec F S512x36x1024 .f32 := Host.absf main_arg1
  let main_cst_0 : FVec F S_ .f32 := constant S_ .f32 0x7F800000#32
  let main_v5 : FVec F S512x36x1024 .f32 := broadcastInDim S512x36x1024 ![] bcast_S_S512x36x1024 main_cst_0
  let main_v6 : IVec S512x36x1024 1 := cmpf .olt main_v4 main_v5
  let main_c_1 : IVec S_ 1 := constantI S_ 1 1#1
  let main_v7 : IVec S_ 1 := (fun x v => Host.reduce IntOp.andi x v reducesTo_S512x36x1024_S_d0_1_2 h_S_) main_v6 main_c_1
  let main_v8 : IVec S_ 1 := andi main_v3 main_v7
  let main_v9 : FVec F S512x36x36 .f32 := Host.absf main_arg2
  let main_cst_2 : FVec F S_ .f32 := constant S_ .f32 0x7F800000#32
  let main_v10 : FVec F S512x36x36 .f32 := broadcastInDim S512x36x36 ![] bcast_S_S512x36x36 main_cst_2
  let main_v11 : IVec S512x36x36 1 := cmpf .olt main_v9 main_v10
  let main_c_3 : IVec S_ 1 := constantI S_ 1 1#1
  let main_v12 : IVec S_ 1 := (fun x v => Host.reduce IntOp.andi x v reducesTo_S512x36x36_S_d0_1_2 h_S_) main_v11 main_c_3
  let main_v13 : IVec S_ 1 := andi main_v8 main_v12
  let main_v14 : FVec F S512x36 .f32 := Host.absf main_arg3
  let main_cst_4 : FVec F S_ .f32 := constant S_ .f32 0x7F800000#32
  let main_v15 : FVec F S512x36 .f32 := broadcastInDim S512x36 ![] bcast_S_S512x36 main_cst_4
  let main_v16 : IVec S512x36 1 := cmpf .olt main_v14 main_v15
  fn_part1 (F := F) main_arg4 main_arg5 main_arg6 main_arg7 main_arg8 main_arg9 main_arg10 main_arg11 main_v13 main_v16
-- ==== Kernel.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S512 : Shape := ⟨1, ![512]⟩
abbrev S512x1 : Shape := ⟨2, ![512, 1]⟩
abbrev S18432x1024 : Shape := ⟨2, ![18432, 1024]⟩
abbrev S18432x1 : Shape := ⟨2, ![18432, 1]⟩
abbrev S256x1024 : Shape := ⟨2, ![256, 1024]⟩
abbrev S256x1 : Shape := ⟨2, ![256, 1]⟩
abbrev S128x1024 : Shape := ⟨2, ![128, 1024]⟩
abbrev S128x1 : Shape := ⟨2, ![128, 1]⟩
abbrev S128 : Shape := ⟨1, ![128]⟩
abbrev S1x1024 : Shape := ⟨2, ![1, 1024]⟩
abbrev S128x4096 : Shape := ⟨2, ![128, 4096]⟩
abbrev S1x4096 : Shape := ⟨2, ![1, 4096]⟩

abbrev nBuf : Space → Nat
  | .hbm => 73
  | .vmem => 16
  | .smem => 0
  | _ => 0

abbrev bufTy : (tb : Table) → Fin (tcTables nBuf tb) → BufTy
  | .hbm, ⟨0, _⟩ => ⟨S512x36x1024, .f32⟩
  | .hbm, ⟨1, _⟩ => ⟨S512x36x1024, .f32⟩
  | .hbm, ⟨2, _⟩ => ⟨S512x36x36, .f32⟩
  | .hbm, ⟨3, _⟩ => ⟨S512x36, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096, .f32⟩
  | .hbm, ⟨10, _⟩ => ⟨S4096x1024, .f32⟩
  | .hbm, ⟨11, _⟩ => ⟨S1024, .f32⟩
  | .hbm, ⟨12, _⟩ => ⟨S_, .f32⟩
  | .hbm, ⟨13, _⟩ => ⟨S512x36, .f32⟩
  | .hbm, ⟨14, _⟩ => ⟨S_, .f32⟩
  | .hbm, ⟨15, _⟩ => ⟨S512x36, .f32⟩
  | .hbm, ⟨16, _⟩ => ⟨S512x36, .f32⟩
  | .hbm, ⟨17, _⟩ => ⟨S512x36, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .i1⟩
  | .hbm, ⟨22, _⟩ => ⟨S_, .f32⟩
  | .hbm, ⟨23, _⟩ => ⟨S512x36, .f32⟩
  | .hbm, ⟨24, _⟩ => ⟨S512x36, .f32⟩
  | .hbm, ⟨25, _⟩ => ⟨S512x36, .f32⟩
  | .hbm, ⟨26, _⟩ => ⟨S512x36, .f32⟩
  | .hbm, ⟨27, _⟩ => ⟨S_, .f32⟩
  | .hbm, ⟨28, _⟩ => ⟨S512, .f32⟩
  | .hbm, ⟨29, _⟩ => ⟨S512x1, .f32⟩
  | .hbm, ⟨30, _⟩ => ⟨S512x36, .f32⟩
  | .hbm, ⟨31, _⟩ => ⟨S_, .f32⟩
  | .hbm, ⟨32, _⟩ => ⟨S512, .f32⟩
  | .hbm, ⟨33, _⟩ => ⟨S512x1, .f32⟩
  | .hbm, ⟨34, _⟩ => ⟨S512x36, .f32⟩
  | .hbm, ⟨35, _⟩ => ⟨S512x36, .f32⟩
  | .hbm, ⟨36, _⟩ => ⟨S512x36, .f32⟩
  | .hbm, ⟨37, _⟩ => ⟨S512x36, .f32⟩
  | .hbm, ⟨38, _⟩ => ⟨S_, .f32⟩
  | .hbm, ⟨39, _⟩ => ⟨S512x36, .f32⟩
  | .hbm, ⟨40, _⟩ => ⟨S512x36, .i1⟩
  | .hbm, ⟨41, _⟩ => ⟨S512x36, .f32⟩
  | .hbm, ⟨42, _⟩ => ⟨S_, .f32⟩
  | .hbm, ⟨43, _⟩ => ⟨S512x36, .f32⟩
  | .hbm, ⟨44, _⟩ => ⟨S512x36, .f32⟩
  | .hbm, ⟨45, _⟩ => ⟨S512x36, .f32⟩
  | .hbm, ⟨46, _⟩ => ⟨S_, .f32⟩
  | .hbm, ⟨47, _⟩ => ⟨S512x36, .f32⟩
  | .hbm, ⟨48, _⟩ => ⟨S512x36, .f32⟩
  | .hbm, ⟨49, _⟩ => ⟨S_, .f32⟩
  | .hbm, ⟨50, _⟩ => ⟨S512x36, .f32⟩
  | .hbm, ⟨51, _⟩ => ⟨S512x36, .f32⟩
  | .hbm, ⟨52, _⟩ => ⟨S512x36, .f32⟩
  | .hbm, ⟨53, _⟩ => ⟨S512x36, .f32⟩
  | .hbm, ⟨54, _⟩ => ⟨S_, .f32⟩
  | .hbm, ⟨55, _⟩ => ⟨S512x36, .f32⟩
  | .hbm, ⟨56, _⟩ => ⟨S512x36, .f32⟩
  | .hbm, ⟨57, _⟩ => ⟨S512x36, .f32⟩
  | .hbm, ⟨58, _⟩ => ⟨S_, .f32⟩
  | .hbm, ⟨59, _⟩ => ⟨S512x36, .f32⟩
  | .hbm, ⟨60, _⟩ => ⟨S512x36, .f32⟩
  | .hbm, ⟨61, _⟩ => ⟨S_, .f32⟩
  | .hbm, ⟨62, _⟩ => ⟨S512x36, .f32⟩
  | .hbm, ⟨63, _⟩ => ⟨S512x36, .f32⟩
  | .hbm, ⟨64, _⟩ => ⟨S512x36, .f32⟩
  | .hbm, ⟨65, _⟩ => ⟨S512x36, .f32⟩
  | .hbm, ⟨66, _⟩ => ⟨S18432x1024, .f32⟩
  | .hbm, ⟨67, _⟩ => ⟨S18432x1024, .f32⟩
  | .hbm, ⟨68, _⟩ => ⟨S18432x1, .f32⟩
  | .hbm, ⟨69, _⟩ => ⟨S1024x4096, .bf16⟩
  | .hbm, ⟨70, _⟩ => ⟨S4096x1024, .bf16⟩
  | .hbm, ⟨71, _⟩ => ⟨S18432x1024, .f32⟩
  | .hbm, ⟨72, _⟩ => ⟨S512x36x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1024x4096, .bf16⟩
  | .local _ .vmem, ⟨11, _⟩ => ⟨S4096, .f32⟩
  | .local _ .vmem, ⟨12, _⟩ => ⟨S4096x1024, .bf16⟩
  | .local _ .vmem, ⟨13, _⟩ => ⟨S1024, .f32⟩
  | .local _ .vmem, ⟨14, _⟩ => ⟨S256x1024, .f32⟩
  | .local _ .vmem, ⟨15, _⟩ => ⟨S256x1024, .f32⟩
  | _, _ => ⟨S512x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_11 : Ref sig .tc := ⟨.hbm, 58, rfl⟩
abbrev main_v34 : Ref sig .tc := ⟨.hbm, 59, rfl⟩
abbrev main_v35 : Ref sig .tc := ⟨.hbm, 60, rfl⟩
abbrev main_cst_12 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![72], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  reducesTo_S512x36x36_S512x36_d2 : S512x36x36.ReducesTo [2] S512x36
  h_S_ : 0 < S_.numel
  bcast_S_S512x36 : S_.BroadcastsInDim S512x36 (![] : Fin 0 → Fin S512x36.rank)
  reducesTo_S512x36_S_d0_1 : S512x36.ReducesTo [0, 1] S_
  reducesTo_S512x36_S512_d1 : S512x36.ReducesTo [1] S512
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  shapeCasts_S512x36x1024_S18432x1024 : S512x36x1024.ShapeCasts S18432x1024
  shapeCasts_S512x36_S18432x1 : S512x36.ShapeCasts S18432x1
  bitsLt_bf16_f32 : FTy.bits .bf16 < FTy.bits .f32
  inb_S1024_S1024_0 : ∀ a, (![0] : Fin 1 → Nat) a + S1024.size a ≤ S1024.size a
  h_S1024 : 0 < S1024.numel
  inb_S4096_S4096_0 : ∀ a, (![0] : Fin 1 → Nat) a + S4096.size a ≤ S4096.size a
  h_S4096 : 0 < S4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1024_S128x1024_0_0 : ∀ a, (![0, 0] : Fin 2 → Nat) a + S128x1024.size a ≤ S256x1024.size a
  h_S128x1024 : 0 < S128x1024.numel
  shapeCasts_S128x1024_S128x1024 : S128x1024.ShapeCasts S128x1024
  inb_S256x1_S128x1_0_0 : ∀ a, (![0, 0] : Fin 2 → Nat) a + S128x1.size a ≤ S256x1.size a
  h_S128x1 : 0 < S128x1.numel
  shapeCasts_S128x1_S128x1 : S128x1.ShapeCasts S128x1
  reduces_S128x1024_S128 : S128x1024.Reduces [1] S128
  shapeCasts_S128_S128x1 : S128.ShapeCasts S128x1
  broadcasts_S128x1_S128x1024 : S128x1.Broadcasts S128x1024
  shapeCasts_S1024_S1x1024 : S1024.ShapeCasts S1x1024
  broadcasts_S1x1024_S128x1024 : S1x1024.Broadcasts S128x1024
  shapeCasts_S4096_S1x4096 : S4096.ShapeCasts S1x4096
  broadcasts_S1x4096_S128x4096 : S1x4096.Broadcasts S128x4096
  inb_S256x1024_S128x1024_128_0 : ∀ a, (![128, 0] : Fin 2 → Nat) a + S128x1024.size a ≤ S256x1024.size a
  inb_S256x1_S128x1_128_0 : ∀ a, (![128, 0] : Fin 2 → Nat) a + S128x1.size a ≤ S256x1.size a
  shapeCasts_S18432x1024_S512x36x1024 : S18432x1024.ShapeCasts S512x36x1024
  dot_S128x1024_S1024x4096_S128x4096_1_0_0_1_n_n_wf : DotDims.WF S128x1024 S1024x4096 S128x4096 [1] [0] [0] [1] [] []
  dot_S128x4096_S4096x1024_S128x1024_1_0_0_1_n_n_wf : DotDims.WF S128x4096 S4096x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S18432x1024.size a
  hwx0_0 : ∀ i : grid0.Coords, EltTy.bits .f32 = 32 ∨ (Rect.block (s := S18432x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S18432x1024.size a
  hwx0_1 : ∀ i : grid0.Coords, EltTy.bits .f32 = 32 ∨ (Rect.block (s := S18432x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S18432x1.size a
  hwx0_2 : ∀ i : grid0.Coords, EltTy.bits .f32 = 32 ∨ (Rect.block (s := S18432x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x4096.size a ≤ S1024x4096.size a
  hwx0_7 : ∀ i : grid0.Coords, EltTy.bits .bf16 = 32 ∨ (Rect.block (s := S1024x4096) S1024x4096.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096.size a ≤ S4096.size a
  hwx0_8 : ∀ i : grid0.Coords, EltTy.bits .f32 = 32 ∨ (Rect.block (s := S4096) S4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x1024.size a ≤ S4096x1024.size a
  hwx0_9 : ∀ i : grid0.Coords, EltTy.bits .bf16 = 32 ∨ (Rect.block (s := S4096x1024) S4096x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S18432x1024.size a
  hwx0_11 : ∀ i : grid0.Coords, EltTy.bits .f32 = 32 ∨ (Rect.block (s := S18432x1024) S256x1024.size (cc0_transform_11 i) (hinb0_11 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x4096_S4096x1024_S128x1024_1_0_0_1_n_n : DotDims S128x4096 S4096x1024 S128x1024 where
  lhsContracting := [1]
  rhsContracting := [0]
  lhsNonContracting := [0]
  rhsNonContracting := [1]
  lhsBatch := []
  rhsBatch := []
  wf := dot_S128x4096_S4096x1024_S128x1024_1_0_0_1_n_n_wf

abbrev win0_0 : Pipeline.Window sig grid0 :=
  Pipeline.Window.ofSpec (Memref.whole main_v40) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S1024x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v44) S4096x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S512x36x1024 : Shape := ⟨3, ![512, 36, 1024]⟩
abbrev S512x36x36 : Shape := ⟨3, ![512, 36, 36]⟩
abbrev S512x36 : Shape := ⟨2, ![512, 36]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩
abbrev S512x36x1 : Shape := ⟨3, ![512, 36, 1]⟩
abbrev S1x1x1024 : Shape := ⟨3, ![1, 1, 1024]⟩
abbrev S512 : Shape := ⟨1, ![512]⟩
abbrev S512x1 : Shape := ⟨2, ![512, 1]⟩
abbrev S512x36x4096 : Shape := ⟨3, ![512, 36, 4096]⟩
abbrev S1x1x4096 : Shape := ⟨3, ![1, 1, 4096]⟩

abbrev nBuf : Space → Nat
  | .hbm => 140
  | .vmem => 0
  | .smem => 0
  | _ => 0

abbrev hbmTy0_0 (i : Nat) : BufTy := match i % 128 with
  | 0 => ⟨S512x36x1024, .f32⟩
  | 1 => ⟨S512x36x1024, .f32⟩
  | 2 => ⟨S512x36x36, .f32⟩
  | 3 => ⟨S512x36, .f32⟩
  | 4 => ⟨S1024, .f32⟩
  | 5 => ⟨S1024, .f32⟩
  | 6 => ⟨S1024, .f32⟩
  | 7 => ⟨S1024, .f32⟩
  | 8 => ⟨S1024x4096, .f32⟩
  | 9 => ⟨S4096, .f32⟩
  | 10 => ⟨S4096x1024, .f32⟩
  | 11 => ⟨S1024, .f32⟩
  | 12 => ⟨S512x36x1024, .f32⟩
  | 13 => ⟨S_, .f32⟩
  | 14 => ⟨S512x36, .f32⟩
  | 15 => ⟨S512x36x1, .f32⟩
  | 16 => ⟨S_, .f32⟩
  | 17 => ⟨S512x36x1, .f32⟩
  | 18 => ⟨S512x36x1, .f32⟩
  | 19 => ⟨S512x36x1024, .f32⟩
  | 20 => ⟨S512x36x1024, .f32⟩
  | 21 => ⟨S512x36x1024, .f32⟩
  | 22 => ⟨S_, .f32⟩
  | 23 => ⟨S512x36, .f32⟩
  | 24 => ⟨S512x36x1, .f32⟩
  | 25 => ⟨S_, .f32⟩
  | 26 => ⟨S512x36x1, .f32⟩
  | 27 => ⟨S512x36x1, .f32⟩
  | 28 => ⟨S512x36x1024, .f32⟩
  | 29 => ⟨S512x36x1024, .f32⟩
  | 30 => ⟨S1x1x1024, .f32⟩
  | 31 => ⟨S512x36x1024, .f32⟩
  | 32 => ⟨S512x36x1024, .f32⟩
  | 33 => ⟨S_, .f32⟩
  | 34 => ⟨S512x36x1, .f32⟩
  | 35 => ⟨S512x36x1, .f32⟩
  | 36 => ⟨S512x36x1, .f32⟩
  | 37 => ⟨S512x36x1024, .f32⟩
  | 38 => ⟨S512x36x1024, .f32⟩
  | 39 => ⟨S1x1x1024, .f32⟩
  | 40 => ⟨S512x36x1024, .f32⟩
  | 41 => ⟨S512x36x1024, .f32⟩
  | 42 => ⟨S_, .f32⟩
  | 43 => ⟨S512x36, .f32⟩
  | 44 => ⟨S_, .f32⟩
  | 45 => ⟨S512x36, .f32⟩
  | 46 => ⟨S512x36, .f32⟩
  | 47 => ⟨S512x36, .f32⟩
  | 48 => ⟨S_, .f32⟩
  | 49 => ⟨S_, .f32⟩
  | 50 => ⟨S_, .f32⟩
  | 51 => ⟨S_, .i1⟩
  | 52 => ⟨S_, .f32⟩
  | 53 => ⟨S512x36, .f32⟩
  | 54 => ⟨S512x36, .f32⟩
  | 55 => ⟨S512x36, .f32⟩
  | 56 => ⟨S512x36, .f32⟩
  | 57 => ⟨S_, .f32⟩
  | 58 => ⟨S512, .f32⟩
  | 59 => ⟨S512x1, .f32⟩
  | 60 => ⟨S512x36, .f32⟩
  | 61 => ⟨S_, .f32⟩
  | 62 => ⟨S512, .f32⟩
  | 63 => ⟨S512x1, .f32⟩
  | 64 => ⟨S512x36, .f32⟩
  | 65 => ⟨S512x36, .f32⟩
  | 66 => ⟨S512x36, .f32⟩
  | 67 => ⟨S512x36, .f32⟩
  | 68 => ⟨S_, .f32⟩
  | 69 => ⟨S512x36, .f32⟩
  | 70 => ⟨S512x36, .i1⟩
  | 71 => ⟨S512x36, .f32⟩
  | 72 => ⟨S_, .f32⟩
  | 73 => ⟨S512x36, .f32⟩
  | 74 => ⟨S512x36, .f32⟩
  | 75 => ⟨S512x36, .f32⟩
  | 76 => ⟨S_, .f32⟩
  | 77 => ⟨S512x36, .f32⟩
  | 78 => ⟨S512x36, .f32⟩
  | 79 => ⟨S_, .f32⟩
  | 80 => ⟨S512x36, .f32⟩
  | 81 => ⟨S512x36, .f32⟩
  | 82 => ⟨S512x36, .f32⟩
  | 83 => ⟨S512x36, .f32⟩
  | 84 => ⟨S_, .f32⟩
  | 85 => ⟨S512x36, .f32⟩
  | 86 => ⟨S512x36, .f32⟩
  | 87 => ⟨S512x36, .f32⟩
  | 88 => ⟨S_, .f32⟩
  | 89 => ⟨S512x36, .f32⟩
  | 90 => ⟨S512x36, .f32⟩
  | 91 => ⟨S_, .f32⟩
  | 92 => ⟨S512x36, .f32⟩
  | 93 => ⟨S512x36, .f32⟩
  | 94 => ⟨S512x36, .f32⟩
  | 95 => ⟨S512x36, .f32⟩
  | 96 => ⟨S512x36x1, .f32⟩
  | 97 => ⟨S512x36x1024, .f32⟩
  | 98 => ⟨S512x36x1024, .f32⟩
  | 99 => ⟨S512x36x4096, .f32⟩
  | 100 => ⟨S1x1x4096, .f32⟩
  | 101 => ⟨S512x36x4096, .f32⟩
  | 102 => ⟨S512x36x4096, .f32⟩
  | 103 => ⟨S_, .f32⟩
  | 104 => ⟨S512x36x4096, .f32⟩
  | 105 => ⟨S512x36x4096, .f32⟩
  | 106 => ⟨S512x36x1024, .f32⟩
  | 107 => ⟨S1x1x1024, .f32⟩
  | 108 => ⟨S512x36x1024, .f32⟩
  | 109 => ⟨S512x36x1024, .f32⟩
  | 110 => ⟨S512x36x1024, .f32⟩
  | 111 => ⟨S_, .f32⟩
  | 112 => ⟨S512x36, .f32⟩
  | 113 => ⟨S512x36x1, .f32⟩
  | 114 => ⟨S_, .f32⟩
  | 115 => ⟨S512x36x1, .f32⟩
  | 116 => ⟨S512x36x1, .f32⟩
  | 117 => ⟨S512x36x1024, .f32⟩
  | 118 => ⟨S512x36x1024, .f32⟩
  | 119 => ⟨S512x36x1024, .f32⟩
  | 120 => ⟨S_, .f32⟩
  | 121 => ⟨S512x36, .f32⟩
  | 122 => ⟨S512x36x1, .f32⟩
  | 123 => ⟨S_, .f32⟩
  | 124 => ⟨S512x36x1, .f32⟩
  | 125 => ⟨S512x36x1, .f32⟩
  | 126 => ⟨S512x36x1024, .f32⟩
  | 127 => ⟨S512x36x1024, .f32⟩
  | _ => ⟨S512x36x1024, .f32⟩

abbrev hbmTy0_1 (i : Nat) : BufTy := match i % 128 with
  | 0 => ⟨S1x1x1024, .f32⟩
  | 1 => ⟨S512x36x1024, .f32⟩
  | 2 => ⟨S512x36x1024, .f32⟩
  | 3 => ⟨S_, .f32⟩
  | 4 => ⟨S512x36x1, .f32⟩
  | 5 => ⟨S512x36x1, .f32⟩
  | 6 => ⟨S512x36x1, .f32⟩
  | 7 => ⟨S512x36x1024, .f32⟩
  | 8 => ⟨S512x36x1024, .f32⟩
  | 9 => ⟨S1x1x1024, .f32⟩
  | 10 => ⟨S512x36x1024, .f32⟩
  | 11 => ⟨S512x36x1024, .f32⟩
  | _ => ⟨S512x36x1024, .f32⟩

abbrev hbmTy (i : Nat) : BufTy := match i / 128 with
  | 0 => hbmTy0_0 i
  | 1 => hbmTy0_1 i
  | _ => ⟨S512x36x1024, .f32⟩

abbrev bufTy : (tb : Table) → Fin (tcTables nBuf tb) → BufTy
  | .hbm, ⟨i, _⟩ => hbmTy i
  | _, _ => ⟨S512x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_cst_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_call1_cst : Ref sig .tc := ⟨.hbm, 103, rfl⟩
abbrev main_call1_v0 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_18 : Ref sig .tc := ⟨.hbm, 111, rfl⟩
abbrev main_v78 : Ref sig .tc := ⟨.hbm, 112, rfl⟩
abbrev main_v79 : Ref sig .tc := ⟨.hbm, 113, rfl⟩
abbrev main_cst_19 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_20 : Ref sig .tc := ⟨.hbm, 120, rfl⟩
abbrev main_v85 : Ref sig .tc := ⟨.hbm, 121, rfl⟩
abbrev main_v86 : Ref sig .tc := ⟨.hbm, 122, rfl⟩
abbrev main_cst_21 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_22 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]

class Facts₀ : Prop where
  reducesTo_S512x36x1024_S512x36_d2 : S512x36x1024.ReducesTo [2] S512x36
  h_S_ : 0 < S_.numel
  bcast_S512x36_S512x36x1_0_1 : S512x36.BroadcastsInDim S512x36x1 (![0, 1] : Fin 2 → Fin S512x36x1.rank)
  bcast_S_S512x36x1 : S_.BroadcastsInDim S512x36x1 (![] : Fin 0 → Fin S512x36x1.rank)
  bcast_S512x36x1_S512x36x1024_0_1_2 : S512x36x1.BroadcastsInDim S512x36x1024 (![0, 1, 2] : Fin 3 → Fin S512x36x1024.rank)
  bcast_S1024_S1x1x1024_2 : S1024.BroadcastsInDim S1x1x1024 (![2] : Fin 1 → Fin S1x1x1024.rank)
  bcast_S1x1x1024_S512x36x1024_0_1_2 : S1x1x1024.BroadcastsInDim S512x36x1024 (![0, 1, 2] : Fin 3 → Fin S512x36x1024.rank)
  reducesTo_S512x36x36_S512x36_d2 : S512x36x36.ReducesTo [2] S512x36
  bcast_S_S512x36 : S_.BroadcastsInDim S512x36 (![] : Fin 0 → Fin S512x36.rank)
  reducesTo_S512x36_S_d0_1 : S512x36.ReducesTo [0, 1] S_
  reducesTo_S512x36_S512_d1 : S512x36.ReducesTo [1] S512
  bcast_S512_S512x1_0 : S512.BroadcastsInDim S512x1 (![0] : Fin 1 → Fin S512x1.rank)
  bcast_S512x1_S512x36_0_1 : S512x1.BroadcastsInDim S512x36 (![0, 1] : Fin 2 → Fin S512x36.rank)
  bcast_S4096_S1x1x4096_2 : S4096.BroadcastsInDim S1x1x4096 (![2] : Fin 1 → Fin S1x1x4096.rank)
  bcast_S1x1x4096_S512x36x4096_0_1_2 : S1x1x4096.BroadcastsInDim S512x36x4096 (![0, 1, 2] : Fin 3 → Fin S512x36x4096.rank)
  bcast_S_S512x36x4096 : S_.BroadcastsInDim S512x36x4096 (![] : Fin 0 → Fin S512x36x4096.rank)
  dot_S512x36x1024_S1024x4096_S512x36x4096_2_0_01_1_n_n_wf : DotDims.WF S512x36x1024 S1024x4096 S512x36x4096 [2] [0] [0, 1] [1] [] []
  dot_S512x36x4096_S4096x1024_S512x36x1024_2_0_01_1_n_n_wf : DotDims.WF S512x36x4096 S4096x1024 S512x36x1024 [2] [0] [0, 1] [1] [] []

variable [Facts₀]

def dot_S512x36x1024_S1024x4096_S512x36x4096_2_0_01_1_n_n : DotDims S512x36x1024 S1024x4096 S512x36x4096 where
  lhsContracting := [2]
  rhsContracting := [0]
  lhsNonContracting := [0, 1]
  rhsNonContracting := [1]
  lhsBatch := []
  rhsBatch := []
  wf := dot_S512x36x1024_S1024x4096_S512x36x4096_2_0_01_1_n_n_wf
def dot_S512x36x4096_S4096x1024_S512x36x1024_2_0_01_1_n_n : DotDims S512x36x4096 S4096x1024 S512x36x1024 where
  lhsContracting := [2]
  rhsContracting := [0]
  lhsNonContracting := [0, 1]
  rhsNonContracting := [1]
  lhsBatch := []
  rhsBatch := []
  wf := dot_S512x36x4096_S4096x1024_S512x36x1024_2_0_01_1_n_n_wf

class Facts : Prop extends Facts₀ where

variable [Facts]
-- ==== Proof.LibRsqrtDiv.lean ====
/-
  Multiplying by a reciprocal root and dividing by the root, on the extended reals.

  At the exact values `rsqrt` sends `⊤` to `0`, `0` to `⊤`, a positive real to the inverse of its root, and anything below
  zero to `⊥`; `sqrt` keeps `⊤`, and division by `⊤` gives `0`. So for a POSITIVE `z` (possibly `⊤`) the product `a · rsqrt z` is the
  quotient `a / sqrt z`, whatever `a` is; below or at zero the two conventions part. A variance plus a positive `ε` is always
  positive: a square is non-negative at the infinities too (`⊥ · ⊥ = ⊤`), a sum of non-negatives is non-negative, and
  dividing a non-negative by a positive real keeps it so. None of this needs finiteness.
-/
import Idealize.ShloMosaic.PureOps.Ideal

noncomputable section

namespace Idealize.ShloMosaic.RsqrtDiv

open Idealize.ShloMosaic

/-- A square is non-negative, at the infinities too. -/
theorem mul_self_nonneg_ereal (d : EReal) : 0 ≤ d * d := by
  rcases le_total 0 d with h | h
  · exact mul_nonneg h h
  · have h' : 0 ≤ -d := by simpa using EReal.neg_le_neg_iff.2 h
    have := mul_nonneg h' h'
    rwa [neg_mul_neg] at this

/-- A sum of squares is non-negative. -/
theorem sum_sq_nonneg {ι : Type*} (s : Finset ι) (d : ι → EReal) : 0 ≤ ∑ k ∈ s, d k * d k :=
  Finset.sum_nonneg fun k _ => mul_self_nonneg_ereal (d k)

/-- Dividing a non-negative extended real by a positive real leaves it non-negative. -/
theorem div_pos_real_nonneg (s : EReal) (hs : 0 ≤ s) {n : ℝ} (hn : 0 < n) : 0 ≤ Ideal.div s (n : EReal) := by
  rw [Ideal.div_coe hn.ne']
  exact mul_nonneg hs (by exact_mod_cast (one_div_pos.2 hn).le)

/-- A non-negative plus a positive is positive. -/
theorem add_pos_of_nonneg_pos (a e : EReal) (ha : 0 ≤ a) (he : 0 < e) : 0 < a + e :=
  lt_of_lt_of_le he (le_add_of_nonneg_left ha)

/-- THE LAW: for a positive `z` (possibly `⊤`), the product with the reciprocal root is the quotient by the root. -/
theorem mul_rsqrt_eq_div_sqrt (a z : EReal) (hz : 0 < z) : a * Ideal.rsqrt z = Ideal.div a (Ideal.sqrt z) := by
  induction z using EReal.rec with
  | bot => exact absurd hz (by simp)
  | top =>
    rw [Ideal.rsqrt_top, Ideal.sqrt_top, Ideal.div, if_neg EReal.top_ne_zero, EReal.inv_top, mul_zero]
  | coe r =>
    have hr : 0 < r := by exact_mod_cast hz
    rw [Ideal.rsqrt_coe, Ideal.sqrt_coe, if_neg (not_lt.2 hr.le), if_neg hr.ne', if_neg (not_lt.2 hr.le)]
    have hs : Real.sqrt r ≠ 0 := (Real.sqrt_pos.2 hr).ne'
    rw [Ideal.div, if_neg (by exact_mod_cast hs), ← EReal.coe_inv]

end Idealize.ShloMosaic.RsqrtDiv

end
-- ==== Proof.RowMath.lean ====
/-
  The mathematics of the kernel, on the extended reals, with no program in sight.

  One row of the output depends on one row `x` of `v + q` (1024 entries), on that row's gate weight
  `w`, and on the parameter arrays. With `mean y = (∑ y) / 1024`, `dev y f = y f - mean y` and
  `var y = (∑ (dev y)²) / 1024`, a layer norm is `g f · dev y f`, scaled by the inverse root of
  `var y + ε`, plus `b f`. One program multiplies by the reciprocal root, the other divides by the
  root. The two agree as soon as `var y + ε` is positive, and it always is: a square is non-negative
  on the extended reals (at the infinities too), a sum of non-negatives is non-negative, division by
  1024 keeps the sign, and `ε > 0`. No finiteness of any input is used.

  The row is `norm₂ (u + ffn u)` with `u = w · norm₁ x` and `ffn u = (max (u · W1 + c1) 0) · W2 + c2`.
-/
import Idealize.ShloMosaic.PureOps.Ideal
import Idealize.ShloMosaic.PureOps.Ideal.Laws
import proofs.«172532_j77592879170023_2_alg».proof.Proof.LibRsqrtDiv

noncomputable section

namespace Cert.RowMath

open Idealize.ShloMosaic Idealize.ShloMosaic.RsqrtDiv

/-! ## The two float words the norms use -/

/-- The word `1024.0` denotes the real 1024. -/
theorem ofBits_1024 : Ideal.ofBits .f32 0x44800000#32 = ((1024 : ℝ) : EReal) := by
  simp [Ideal.ofBits, Ideal.ieee, -EReal.coe_mul]; norm_num

/-- The layer norm's `ε` (the float nearest 1e-6) is a positive number. -/
theorem eps_pos : (0 : EReal) < Ideal.ofBits .f32 0x358637BD#32 := by
  simp [Ideal.ofBits, Ideal.ieee, -EReal.coe_mul]

/-! ## A layer norm over one row of 1024 entries -/

/-- The row's mean: its sum divided by the word `1024.0`. -/
def mean (y : Fin 1024 → EReal) : EReal := Ideal.div (∑ k, y k) (Ideal.ofBits .f32 0x44800000#32)

/-- An entry's deviation from the row's mean. -/
def dev (y : Fin 1024 → EReal) (f : Fin 1024) : EReal := y f - mean y

/-- The row's variance: the mean of the squared deviations. -/
def var (y : Fin 1024 → EReal) : EReal := Ideal.div (∑ k, dev y k * dev y k) (Ideal.ofBits .f32 0x44800000#32)

/-- The argument of the root: variance plus `ε`. -/
def rootArg (y : Fin 1024 → EReal) : EReal := var y + Ideal.ofBits .f32 0x358637BD#32

/-- It is positive for EVERY row of extended reals. -/
theorem rootArg_pos (y : Fin 1024 → EReal) : 0 < rootArg y := by
  unfold rootArg var
  rw [ofBits_1024]
  exact add_pos_of_nonneg_pos _ _ (div_pos_real_nonneg _ (sum_sq_nonneg Finset.univ _) (by norm_num)) eps_pos

/-- The norm as the kernel spells it: times the reciprocal root. -/
def normK (g b y : Fin 1024 → EReal) (f : Fin 1024) : EReal :=
  g f * dev y f * Ideal.rsqrt (rootArg y) + b f

/-- The norm as the reference spells it: divided by the root. -/
def normR (g b y : Fin 1024 → EReal) (f : Fin 1024) : EReal :=
  Ideal.div (g f * dev y f) (Ideal.sqrt (rootArg y)) + b f

theorem normK_eq_normR : normK = normR := by
  funext g b y f
  unfold normK normR
  rw [mul_rsqrt_eq_div_sqrt _ _ (rootArg_pos y)]

/-! ## The feed-forward block and the whole row -/

/-- The hidden layer at unit `j`: `max (u · W1[:, j] + c1 j) 0`. -/
def hidden (u : Fin 1024 → EReal) (W1 : Fin 1024 → Fin 4096 → EReal) (c1 : Fin 4096 → EReal) (j : Fin 4096) : EReal :=
  max ((∑ k, u k * W1 k j) + c1 j) 0

/-- The block's output at column `f`: `hidden · W2[:, f] + c2 f`. -/
def ffn (u : Fin 1024 → EReal) (W1 : Fin 1024 → Fin 4096 → EReal) (c1 : Fin 4096 → EReal)
    (W2 : Fin 4096 → Fin 1024 → EReal) (c2 : Fin 1024 → EReal) (f : Fin 1024) : EReal :=
  (∑ j, hidden u W1 c1 j * W2 j f) + c2 f

/-- The residual sum the second norm is taken of. -/
def resid (u : Fin 1024 → EReal) (W1 : Fin 1024 → Fin 4096 → EReal) (c1 : Fin 4096 → EReal)
    (W2 : Fin 4096 → Fin 1024 → EReal) (c2 : Fin 1024 → EReal) (f : Fin 1024) : EReal :=
  u f + ffn u W1 c1 W2 c2 f

/-- One output row, with the norm left as a parameter. -/
def row (norm : (Fin 1024 → EReal) → (Fin 1024 → EReal) → (Fin 1024 → EReal) → Fin 1024 → EReal)
    (x : Fin 1024 → EReal) (w : EReal) (g1 b1 g2 b2 : Fin 1024 → EReal)
    (W1 : Fin 1024 → Fin 4096 → EReal) (c1 : Fin 4096 → EReal)
    (W2 : Fin 4096 → Fin 1024 → EReal) (c2 : Fin 1024 → EReal) : Fin 1024 → EReal :=
  norm g2 b2 (resid (fun f => w * norm g1 b1 x f) W1 c1 W2 c2)

/-- The kernel's row and the reference's row are one function. -/
theorem row_normK_eq_row_normR : row normK = row normR := by rw [normK_eq_normR]

end Cert.RowMath

end
-- ==== Proof.RefIndex.lean ====
/-
  The reference's index maps at coordinates.

  Each layout operation of the reference reads its operand at an index computed from the result's index: a
  sum over the last axis reads `(b, s, k)` for the result's `(b, s)`; a keep-dims cast reads `(b, s)` for
  `(b, s, 0)`; a broadcast along the last axis reads `(b, s, 0)` for `(b, s, f)`; a parameter vector laid
  along the last axis reads `f`; a contraction's left operand reads row `(b, s)` at `k` and its right
  operand `(k, j)`. Stated once each, at indices built from their coordinates.
-/
import proofs.«172532_j77592879170023_2_alg».proof.Proof.Gen.ReferenceIdeal.Read
import Idealize.ShloMosaic.Lib.ValueIdx

noncomputable section

namespace Cert.RefIndex

open Cert.ReferenceIdeal Cert.ReferenceIdeal.Read Idealize.ShloMosaic Idealize.ShloMosaic.ValueIdx

theorem idx_main_v1_ix (c0 : Fin 512) (c1 : Fin 36) (k : Fin 1024) :
    idx_main_v1 (ix2 c0 c1) k = ix3 c0 c1 k := by
  funext a; apply Fin.ext; match a with | ⟨0, _⟩ => rfl | ⟨1, _⟩ => rfl | ⟨2, _⟩ => rfl

theorem idx_main_v2_ix (c0 : Fin 512) (c1 : Fin 36) (c2 : Fin 1) :
    idx_main_v2 (ix3 c0 c1 c2) = ix2 c0 c1 := by
  funext a; apply Fin.ext; match a with | ⟨0, _⟩ => rfl | ⟨1, _⟩ => rfl

theorem idx_main_v5_ix (c0 : Fin 512) (c1 : Fin 36) (c2 : Fin 1024) :
    idx_main_v5 (ix3 c0 c1 c2) = ix3 c0 c1 (0 : Fin 1) := by
  funext a; apply Fin.ext; match a with | ⟨0, _⟩ => rfl | ⟨1, _⟩ => rfl | ⟨2, _⟩ => rfl

theorem idx_main_v8_ix (c0 : Fin 512) (c1 : Fin 36) (k : Fin 1024) :
    idx_main_v8 (ix2 c0 c1) k = ix3 c0 c1 k := by
  funext a; apply Fin.ext; match a with | ⟨0, _⟩ => rfl | ⟨1, _⟩ => rfl | ⟨2, _⟩ => rfl

theorem idx_main_v9_ix (c0 : Fin 512) (c1 : Fin 36) (c2 : Fin 1) :
    idx_main_v9 (ix3 c0 c1 c2) = ix2 c0 c1 := by
  funext a; apply Fin.ext; match a with | ⟨0, _⟩ => rfl | ⟨1, _⟩ => rfl

theorem idx_main_v12_ix (c0 : Fin 512) (c1 : Fin 36) (c2 : Fin 1024) :
    idx_main_v12 (ix3 c0 c1 c2) = ix3 c0 c1 (0 : Fin 1) := by
  funext a; apply Fin.ext; match a with | ⟨0, _⟩ => rfl | ⟨1, _⟩ => rfl | ⟨2, _⟩ => rfl

theorem idx_main_v14_ix (c0 : Fin 1) (c1 : Fin 1) (c2 : Fin 1024) :
    idx_main_v14 (ix3 c0 c1 c2) = ix1 c2 := by
  funext a; apply Fin.ext; match a with | ⟨0, _⟩ => rfl

theorem idx_main_v15_ix (c0 : Fin 512) (c1 : Fin 36) (c2 : Fin 1024) :
    idx_main_v15 (ix3 c0 c1 c2) = ix3 (0 : Fin 1) (0 : Fin 1) c2 := by
  funext a; apply Fin.ext; match a with | ⟨0, _⟩ => rfl | ⟨1, _⟩ => rfl | ⟨2, _⟩ => rfl

theorem idx_main_v20_ix (c0 : Fin 512) (c1 : Fin 36) (c2 : Fin 1024) :
    idx_main_v20 (ix3 c0 c1 c2) = ix3 c0 c1 (0 : Fin 1) := by
  funext a; apply Fin.ext; match a with | ⟨0, _⟩ => rfl | ⟨1, _⟩ => rfl | ⟨2, _⟩ => rfl

theorem idx_main_v22_ix (c0 : Fin 1) (c1 : Fin 1) (c2 : Fin 1024) :
    idx_main_v22 (ix3 c0 c1 c2) = ix1 c2 := by
  funext a; apply Fin.ext; match a with | ⟨0, _⟩ => rfl

theorem idx_main_v23_ix (c0 : Fin 512) (c1 : Fin 36) (c2 : Fin 1024) :
    idx_main_v23 (ix3 c0 c1 c2) = ix3 (0 : Fin 1) (0 : Fin 1) c2 := by
  funext a; apply Fin.ext; match a with | ⟨0, _⟩ => rfl | ⟨1, _⟩ => rfl | ⟨2, _⟩ => rfl

theorem idx_main_v65_ix (c0 : Fin 512) (c1 : Fin 36) (c2 : Fin 1) :
    idx_main_v65 (ix3 c0 c1 c2) = ix2 c0 c1 := by
  funext a; apply Fin.ext; match a with | ⟨0, _⟩ => rfl | ⟨1, _⟩ => rfl

theorem idx_main_v66_ix (c0 : Fin 512) (c1 : Fin 36) (c2 : Fin 1024) :
    idx_main_v66 (ix3 c0 c1 c2) = ix3 c0 c1 (0 : Fin 1) := by
  funext a; apply Fin.ext; match a with | ⟨0, _⟩ => rfl | ⟨1, _⟩ => rfl | ⟨2, _⟩ => rfl

theorem lidx_main_v68_ix (c0 : Fin 512) (c1 : Fin 36) (c2 : Fin 4096) (k : Fin 1024) :
    lidx_main_v68 (ix3 c0 c1 c2) k = ix3 c0 c1 k := by
  funext a; apply Fin.ext; match a with | ⟨0, _⟩ => rfl | ⟨1, _⟩ => rfl | ⟨2, _⟩ => rfl

theorem ridx_main_v68_ix (c0 : Fin 512) (c1 : Fin 36) (c2 : Fin 4096) (k : Fin 1024) :
    ridx_main_v68 (ix3 c0 c1 c2) k = ix2 k c2 := by
  funext a; apply Fin.ext; match a with | ⟨0, _⟩ => rfl | ⟨1, _⟩ => rfl

theorem idx_main_v69_ix (c0 : Fin 1) (c1 : Fin 1) (c2 : Fin 4096) :
    idx_main_v69 (ix3 c0 c1 c2) = ix1 c2 := by
  funext a; apply Fin.ext; match a with | ⟨0, _⟩ => rfl

theorem idx_main_v70_ix (c0 : Fin 512) (c1 : Fin 36) (c2 : Fin 4096) :
    idx_main_v70 (ix3 c0 c1 c2) = ix3 (0 : Fin 1) (0 : Fin 1) c2 := by
  funext a; apply Fin.ext; match a with | ⟨0, _⟩ => rfl | ⟨1, _⟩ => rfl | ⟨2, _⟩ => rfl

theorem lidx_main_v73_ix (c0 : Fin 512) (c1 : Fin 36) (c2 : Fin 1024) (k : Fin 4096) :
    lidx_main_v73 (ix3 c0 c1 c2) k = ix3 c0 c1 k := by
  funext a; apply Fin.ext; match a with | ⟨0, _⟩ => rfl | ⟨1, _⟩ => rfl | ⟨2, _⟩ => rfl

theorem ridx_main_v73_ix (c0 : Fin 512) (c1 : Fin 36) (c2 : Fin 1024) (k : Fin 4096) :
    ridx_main_v73 (ix3 c0 c1 c2) k = ix2 k c2 := by
  funext a; apply Fin.ext; match a with | ⟨0, _⟩ => rfl | ⟨1, _⟩ => rfl

theorem idx_main_v74_ix (c0 : Fin 1) (c1 : Fin 1) (c2 : Fin 1024) :
    idx_main_v74 (ix3 c0 c1 c2) = ix1 c2 := by
  funext a; apply Fin.ext; match a with | ⟨0, _⟩ => rfl

theorem idx_main_v75_ix (c0 : Fin 512) (c1 : Fin 36) (c2 : Fin 1024) :
    idx_main_v75 (ix3 c0 c1 c2) = ix3 (0 : Fin 1) (0 : Fin 1) c2 := by
  funext a; apply Fin.ext; match a with | ⟨0, _⟩ => rfl | ⟨1, _⟩ => rfl | ⟨2, _⟩ => rfl

theorem idx_main_v78_ix (c0 : Fin 512) (c1 : Fin 36) (k : Fin 1024) :
    idx_main_v78 (ix2 c0 c1) k = ix3 c0 c1 k := by
  funext a; apply Fin.ext; match a with | ⟨0, _⟩ => rfl | ⟨1, _⟩ => rfl | ⟨2, _⟩ => rfl

theorem idx_main_v79_ix (c0 : Fin 512) (c1 : Fin 36) (c2 : Fin 1) :
    idx_main_v79 (ix3 c0 c1 c2) = ix2 c0 c1 := by
  funext a; apply Fin.ext; match a with | ⟨0, _⟩ => rfl | ⟨1, _⟩ => rfl

theorem idx_main_v82_ix (c0 : Fin 512) (c1 : Fin 36) (c2 : Fin 1024) :
    idx_main_v82 (ix3 c0 c1 c2) = ix3 c0 c1 (0 : Fin 1) := by
  funext a; apply Fin.ext; match a with | ⟨0, _⟩ => rfl | ⟨1, _⟩ => rfl | ⟨2, _⟩ => rfl

theorem idx_main_v85_ix (c0 : Fin 512) (c1 : Fin 36) (k : Fin 1024) :
    idx_main_v85 (ix2 c0 c1) k = ix3 c0 c1 k := by
  funext a; apply Fin.ext; match a with | ⟨0, _⟩ => rfl | ⟨1, _⟩ => rfl | ⟨2, _⟩ => rfl

theorem idx_main_v86_ix (c0 : Fin 512) (c1 : Fin 36) (c2 : Fin 1) :
    idx_main_v86 (ix3 c0 c1 c2) = ix2 c0 c1 := by
  funext a; apply Fin.ext; match a with | ⟨0, _⟩ => rfl | ⟨1, _⟩ => rfl

theorem idx_main_v89_ix (c0 : Fin 512) (c1 : Fin 36) (c2 : Fin 1024) :
    idx_main_v89 (ix3 c0 c1 c2) = ix3 c0 c1 (0 : Fin 1) := by
  funext a; apply Fin.ext; match a with | ⟨0, _⟩ => rfl | ⟨1, _⟩ => rfl | ⟨2, _⟩ => rfl

theorem idx_main_v91_ix (c0 : Fin 1) (c1 : Fin 1) (c2 : Fin 1024) :
    idx_main_v91 (ix3 c0 c1 c2) = ix1 c2 := by
  funext a; apply Fin.ext; match a with | ⟨0, _⟩ => rfl

theorem idx_main_v92_ix (c0 : Fin 512) (c1 : Fin 36) (c2 : Fin 1024) :
    idx_main_v92 (ix3 c0 c1 c2) = ix3 (0 : Fin 1) (0 : Fin 1) c2 := by
  funext a; apply Fin.ext; match a with | ⟨0, _⟩ => rfl | ⟨1, _⟩ => rfl | ⟨2, _⟩ => rfl

theorem idx_main_v97_ix (c0 : Fin 512) (c1 : Fin 36) (c2 : Fin 1024) :
    idx_main_v97 (ix3 c0 c1 c2) = ix3 c0 c1 (0 : Fin 1) := by
  funext a; apply Fin.ext; match a with | ⟨0, _⟩ => rfl | ⟨1, _⟩ => rfl | ⟨2, _⟩ => rfl

theorem idx_main_v99_ix (c0 : Fin 1) (c1 : Fin 1) (c2 : Fin 1024) :
    idx_main_v99 (ix3 c0 c1 c2) = ix1 c2 := by
  funext a; apply Fin.ext; match a with | ⟨0, _⟩ => rfl

theorem idx_main_v100_ix (c0 : Fin 512) (c1 : Fin 36) (c2 : Fin 1024) :
    idx_main_v100 (ix3 c0 c1 c2) = ix3 (0 : Fin 1) (0 : Fin 1) c2 := by
  funext a; apply Fin.ext; match a with | ⟨0, _⟩ => rfl | ⟨1, _⟩ => rfl | ⟨2, _⟩ => rfl

end Cert.RefIndex

end
-- ==== Proof.RefStages.lean ====
/-
  The reference, stage by stage, read at one entry `(b, s, f)`.

  The reference's result at `(b, s, f)` depends on row `(b, s)` of `v + q`, on the gate weight at `(b, s)` and on the
  parameter arrays: it is the reference's spelling of the row function (the norm dividing by the root). The
  gate weight is left as the reference's own array: nothing here looks inside it.
-/
import proofs.«172532_j77592879170023_2_alg».proof.Proof.Gen.ReferenceIdeal.Read
import proofs.«172532_j77592879170023_2_alg».proof.Proof.RefIndex
import proofs.«172532_j77592879170023_2_alg».proof.Proof.RowMath

noncomputable section

namespace Cert.RefStages

open Cert.ReferenceIdeal Cert.ReferenceIdeal.Read Cert.RefIndex Cert.RowMath Idealize.ShloMosaic Idealize.ShloMosaic.ValueIdx

abbrev A3 := (⟨S512x36x1024, .f32⟩ : BufTy).Contents (Elt Ideal)
abbrev AAtt := (⟨S512x36x36, .f32⟩ : BufTy).Contents (Elt Ideal)
abbrev AGate := (⟨S512x36, .f32⟩ : BufTy).Contents (Elt Ideal)
abbrev AH := (⟨S1024, .f32⟩ : BufTy).Contents (Elt Ideal)
abbrev AW1 := (⟨S1024x4096, .f32⟩ : BufTy).Contents (Elt Ideal)
abbrev AM := (⟨S4096, .f32⟩ : BufTy).Contents (Elt Ideal)
abbrev AW2 := (⟨S4096x1024, .f32⟩ : BufTy).Contents (Elt Ideal)

/-- A parameter vector as a function of its one coordinate. -/
abbrev vec (g : AH) : Fin 1024 → EReal := fun k => g (ix1 k)
abbrev vecM (g : AM) : Fin 4096 → EReal := fun k => g (ix1 k)
abbrev mat1 (W : AW1) : Fin 1024 → Fin 4096 → EReal := fun k j => W (ix2 k j)
abbrev mat2 (W : AW2) : Fin 4096 → Fin 1024 → EReal := fun j f => W (ix2 j f)

/-- Row `(b, s)` of `v + q`. -/
abbrev xrow (x0 x1 : A3) (b : Fin 512) (s : Fin 36) : Fin 1024 → EReal := fun k => x0 (ix3 b s k) + x1 (ix3 b s k)

/-- The first norm at `(b, s, f)`: the reference's norm of row `(b, s)` of `v + q`. -/
theorem norm1 (x0 x1 : A3) (x4 x5 : AH) (b : Fin 512) (s : Fin 36) (f : Fin 1024) :
    val_main_v24 (F := Ideal) x0 x1 x4 x5 (ix3 b s f) = normR (vec x4) (vec x5) (xrow x0 x1 b s) f := by
  simp only [val_main_v24_apply, val_main_v23_apply, val_main_v22_apply, val_main_v21_apply, val_main_v20_apply, val_main_v19_apply, val_main_v18_apply, val_main_v17_apply, val_main_cst_3_apply, val_main_v16_apply, val_main_v15_apply, val_main_v14_apply, val_main_v13_apply, val_main_v12_apply, val_main_v11_apply, val_main_v10_apply, val_main_cst_2_apply, val_main_v9_apply, val_main_v8_apply, val_main_cst_1_apply, val_main_v7_apply, val_main_v6_apply, val_main_v5_apply, val_main_v4_apply, val_main_v3_apply, val_main_cst_0_apply, val_main_v2_apply, val_main_v1_apply, val_main_cst_apply, val_main_v0_apply,
    idx_main_v23_ix, idx_main_v22_ix, idx_main_v20_ix, idx_main_v15_ix, idx_main_v14_ix, idx_main_v12_ix, idx_main_v9_ix,
    idx_main_v8_ix, idx_main_v5_ix, idx_main_v2_ix, idx_main_v1_ix,
    Ideal.addf_def, Ideal.subf_def, Ideal.mulf_def, Ideal.hostDivf_def, Ideal.hostUnary_sqrt_def, Ideal.ofBits_def,
    Ideal.ofBits_zero_f32, zero_add]
  rfl

/-- The gate-scaled first norm at `(b, s, f)`: the gate weight of `(b, s)` times the first norm. -/
theorem scaled (x0 x1 : A3) (x2 : AAtt) (x3 : AGate) (x4 x5 : AH) (b : Fin 512) (s : Fin 36) (f : Fin 1024) :
    val_main_v67 (F := Ideal) x0 x1 x2 x3 x4 x5 (ix3 b s f)
      = val_main_v64 (F := Ideal) x2 x3 (ix2 b s) * normR (vec x4) (vec x5) (xrow x0 x1 b s) f := by
  simp only [val_main_v67_apply, val_main_v66_apply, val_main_v65_apply, idx_main_v66_ix, idx_main_v65_ix, Ideal.mulf_def, norm1]

/-- The hidden layer at `(b, s, j)`, over the scaled row `(b, s)`. -/
theorem hidden_at (x0 x1 : A3) (x2 : AAtt) (x3 : AGate) (x4 x5 : AH) (x8 : AW1) (x9 : AM) (b : Fin 512) (s : Fin 36) (j : Fin 4096) :
    val_main_v72 (F := Ideal) x0 x1 x2 x3 x4 x5 x8 x9 (ix3 b s j)
      = hidden (fun k => val_main_v67 (F := Ideal) x0 x1 x2 x3 x4 x5 (ix3 b s k)) (mat1 x8) (vecM x9) j := by
  simp only [val_main_v72_apply, val_main_call1_v0_apply, val_main_call1_cst_apply, val_main_v71_apply, val_main_v70_apply, val_main_v69_apply, val_main_v68_apply, idx_main_v70_ix, idx_main_v69_ix,
    lidx_main_v68_ix, ridx_main_v68_ix, Ideal.addf_def, Ideal.maximumf_def, Ideal.ofBits_def, Ideal.ofBits_zero_f32]
  rfl

/-- The residual sum at `(b, s, f)`. -/
theorem resid_at (x0 x1 : A3) (x2 : AAtt) (x3 : AGate) (x4 x5 : AH) (x8 : AW1) (x9 : AM) (x10 : AW2) (x11 : AH)
    (b : Fin 512) (s : Fin 36) (f : Fin 1024) :
    val_main_v77 (F := Ideal) x0 x1 x2 x3 x4 x5 x8 x9 x10 x11 (ix3 b s f)
      = resid (fun k => val_main_v67 (F := Ideal) x0 x1 x2 x3 x4 x5 (ix3 b s k)) (mat1 x8) (vecM x9) (mat2 x10) (vec x11) f := by
  simp only [val_main_v77_apply, val_main_v76_apply, val_main_v75_apply, val_main_v74_apply, val_main_v73_apply, idx_main_v75_ix, idx_main_v74_ix, lidx_main_v73_ix, ridx_main_v73_ix,
    Ideal.addf_def, hidden_at]
  rfl

/-- The second norm at `(b, s, f)`: the reference's norm of row `(b, s)` of the residual sum. -/
theorem norm2 (x0 x1 : A3) (x2 : AAtt) (x3 : AGate) (x4 x5 x6 x7 : AH) (x8 : AW1) (x9 : AM) (x10 : AW2) (x11 : AH)
    (b : Fin 512) (s : Fin 36) (f : Fin 1024) :
    val_main_v101 (F := Ideal) x0 x1 x2 x3 x4 x5 x6 x7 x8 x9 x10 x11 (ix3 b s f)
      = normR (vec x6) (vec x7) (fun k => val_main_v77 (F := Ideal) x0 x1 x2 x3 x4 x5 x8 x9 x10 x11 (ix3 b s k)) f := by
  simp only [val_main_v101_apply, val_main_v100_apply, val_main_v99_apply, val_main_v98_apply, val_main_v97_apply, val_main_v96_apply, val_main_v95_apply, val_main_v94_apply, val_main_cst_22_apply, val_main_v93_apply, val_main_v92_apply, val_main_v91_apply, val_main_v90_apply, val_main_v89_apply, val_main_v88_apply, val_main_v87_apply, val_main_cst_21_apply, val_main_v86_apply, val_main_v85_apply, val_main_cst_20_apply, val_main_v84_apply, val_main_v83_apply, val_main_v82_apply, val_main_v81_apply, val_main_v80_apply, val_main_cst_19_apply, val_main_v79_apply, val_main_v78_apply, val_main_cst_18_apply,
    idx_main_v100_ix, idx_main_v99_ix, idx_main_v97_ix, idx_main_v92_ix, idx_main_v91_ix, idx_main_v89_ix, idx_main_v86_ix,
    idx_main_v85_ix, idx_main_v82_ix, idx_main_v79_ix, idx_main_v78_ix,
    Ideal.addf_def, Ideal.subf_def, Ideal.mulf_def, Ideal.hostDivf_def, Ideal.hostUnary_sqrt_def, Ideal.ofBits_def,
    Ideal.ofBits_zero_f32, zero_add]
  rfl

/-- THE REFERENCE'S RESULT at `(b, s, f)` is the row function, in the reference's spelling, of row `(b, s)` of `v + q`,
    the gate weight at `(b, s)` and the parameters. -/
theorem result_at (x0 x1 : A3) (x2 : AAtt) (x3 : AGate) (x4 x5 x6 x7 : AH) (x8 : AW1) (x9 : AM) (x10 : AW2) (x11 : AH)
    (b : Fin 512) (s : Fin 36) (f : Fin 1024) :
    val_main_v101 (F := Ideal) x0 x1 x2 x3 x4 x5 x6 x7 x8 x9 x10 x11 (ix3 b s f)
      = row normR (xrow x0 x1 b s) (val_main_v64 (F := Ideal) x2 x3 (ix2 b s)) (vec x4) (vec x5) (vec x6) (vec x7)
          (mat1 x8) (vecM x9) (mat2 x10) (vec x11) f := by
  rw [norm2]
  unfold row
  refine congrArg (fun y => normR (vec x6) (vec x7) y f) (funext fun k => ?_)
  rw [resid_at]
  exact congrArg (fun u => resid u (mat1 x8) (vecM x9) (mat2 x10) (vec x11) k) (funext fun k' => scaled x0 x1 x2 x3 x4 x5 b s k')

end Cert.RefStages

end
-- ==== Proof.HostArrays.lean ====
/-
  What the kernel's host operations hand to the region, and its second result.

  Before the region the kernel's program computes the gate on the host, exactly as the reference does, merges the two
  leading axes of `v` and `q`, lays the gate out as one column, and changes the float format of the two weight
  matrices (no change of value on the extended reals). The gate and the second result are, as whole arrays, the
  reference's own arrays of the same two arguments: nothing here looks inside them.
-/
import proofs.«172532_j77592879170023_2_alg».proof.Proof.Gen.KernelIdeal.Frame
import proofs.«172532_j77592879170023_2_alg».proof.Proof.Gen.ReferenceIdeal.Read
import Idealize.ShloMosaic.Lib.StableHlo.Run

set_option maxRecDepth 16384

noncomputable section

namespace Cert.HostArrays

open Idealize.ShloMosaic Idealize.ShloMosaic.TcCoe Idealize.SL.Sem Idealize.ShloMosaic.StableHlo
open Cert.KernelIdeal Cert.KernelIdeal.Facts₀ Cert.KernelIdeal.Facts Cert.KernelIdeal.Gen

variable (m : (ℓ : Loc nD τ sig) → Buf (Elt Ideal) ℓ)

set_option maxHeartbeats 4000000 in
/-- The gate weights the kernel's own host operations compute are the reference's gate array, of the same two arguments. -/
theorem gate_eq (c : Dev nD) :
    (V m c main_v39 : S512x36.Idx → EReal)
      = Cert.ReferenceIdeal.Read.val_main_v64 (F := Ideal) (m ((c : Thread nD τ).loc main_arg2)) (m ((c : Thread nD τ).loc main_arg3)) := by
  dsimp only [V, V0]
  simp only [hostOps0, hostOps0_1, hostOps0_2, List.flatten_cons, List.flatten_nil, List.append_nil, List.cons_append, List.nil_append]
  after_results_simp
  rfl

set_option maxHeartbeats 4000000 in
/-- The second result, computed by the kernel's host operations, is the reference's array of the same two arguments. -/
theorem ru_out_eq (c : Dev nD) :
    (V m c main_v30 : S512x36.Idx → EReal)
      = Cert.ReferenceIdeal.Read.val_main_v55 (F := Ideal) (m ((c : Thread nD τ).loc main_arg2)) (m ((c : Thread nD τ).loc main_arg3)) := by
  dsimp only [V, V0]
  simp only [hostOps0, hostOps0_1, hostOps0_2, List.flatten_cons, List.flatten_nil, List.append_nil, List.cons_append, List.nil_append]
  after_results_simp
  rfl

set_option maxHeartbeats 4000000 in
/-- The region's first operand is `v` with its two leading axes merged. -/
theorem rows_v (c : Dev nD) :
    (V m c main_v40 : S18432x1024.Idx → EReal)
      = shapeCast S18432x1024 (m ((c : Thread nD τ).loc main_arg0)) Facts₀.shapeCasts_S512x36x1024_S18432x1024 := by
  dsimp only [V, V0]
  simp only [hostOps0, hostOps0_1, hostOps0_2, List.flatten_cons, List.flatten_nil, List.append_nil, List.cons_append, List.nil_append]
  after_results_simp
  rfl

set_option maxHeartbeats 4000000 in
/-- Its second operand is `q`, likewise. -/
theorem rows_q (c : Dev nD) :
    (V m c main_v41 : S18432x1024.Idx → EReal)
      = shapeCast S18432x1024 (m ((c : Thread nD τ).loc main_arg1)) Facts₀.shapeCasts_S512x36x1024_S18432x1024 := by
  dsimp only [V, V0]
  simp only [hostOps0, hostOps0_1, hostOps0_2, List.flatten_cons, List.flatten_nil, List.append_nil, List.cons_append, List.nil_append]
  after_results_simp
  rfl

set_option maxHeartbeats 4000000 in
/-- Its third operand is the gate array as one column. -/
theorem rows_w (c : Dev nD) :
    (V m c main_v42 : S18432x1.Idx → EReal)
      = shapeCast S18432x1 (V m c main_v39 : S512x36.Idx → EReal) Facts₀.shapeCasts_S512x36_S18432x1 := by
  dsimp only [V, V0]
  simp only [hostOps0, hostOps0_1, hostOps0_2, List.flatten_cons, List.flatten_nil, List.append_nil, List.cons_append, List.nil_append]
  after_results_simp
  rfl

set_option maxHeartbeats 4000000 in
/-- The first weight matrix reaches the region through a change of float format: the same extended reals. -/
theorem weights1 (c : Dev nD) :
    (V m c main_v43 : S1024x4096.Idx → EReal) = (m ((c : Thread nD τ).loc main_arg8) : S1024x4096.Idx → EReal) := by
  dsimp only [V, V0]
  simp only [hostOps0, hostOps0_1, hostOps0_2, List.flatten_cons, List.flatten_nil, List.append_nil, List.cons_append, List.nil_append]
  after_results_simp
  rfl

set_option maxHeartbeats 4000000 in
/-- The second one likewise. -/
theorem weights2 (c : Dev nD) :
    (V m c main_v44 : S4096x1024.Idx → EReal) = (m ((c : Thread nD τ).loc main_arg10) : S4096x1024.Idx → EReal) := by
  dsimp only [V, V0]
  simp only [hostOps0, hostOps0_1, hostOps0_2, List.flatten_cons, List.flatten_nil, List.append_nil, List.cons_append, List.nil_append]
  after_results_simp
  rfl

end Cert.HostArrays

end
-- ==== Proof.BlockReads.lean ====
/-
  The region's blocks, read at coordinates.

  The grid has 72 points. At point `t` the three row-tiled windows (the two inputs and the gate column) and the output hold
  rows `256 t` to `256 t + 255` of their arrays; the eight parameter windows hold their whole arrays at every point. The
  output's 72 blocks cover its array: row `i` is in block `i / 256`.
-/
import proofs.«172532_j77592879170023_2_alg».proof.Proof.Gen.KernelIdeal.Frame
import Idealize.ShloMosaic.Lib.ValueIdx
import Idealize.ShloMosaic.Lib.Pipeline.Value

set_option maxRecDepth 16384

noncomputable section

namespace Cert.BlockReads

open Idealize.ShloMosaic Idealize.ShloMosaic.TcCoe Idealize.SL.Sem Idealize.ShloMosaic.ValueIdx
open Cert.KernelIdeal Cert.KernelIdeal.Facts₀ Cert.KernelIdeal.Facts Cert.KernelIdeal.Gen

/-- The printed index maps, decided over the grid: a row-tiled window's block index is the point's number on the row axis and
    zero on the other; a parameter window's is zero. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_3.index t (0 : Fin 1) = 0
    ∧ win0_4.index t (0 : Fin 1) = 0
    ∧ win0_5.index t (0 : Fin 1) = 0
    ∧ win0_6.index t (0 : Fin 1) = 0
    ∧ win0_8.index t (0 : Fin 1) = 0
    ∧ win0_10.index t (0 : Fin 1) = 0
    ∧ win0_7.index t (0 : Fin 2) = 0
    ∧ win0_7.index t (1 : Fin 2) = 0
    ∧ win0_9.index t (0 : Fin 2) = 0
    ∧ win0_9.index t (1 : Fin 2) = 0 :=
  (by decide +kernel : ∀ t : Fin grid0.N, _)

theorem point_lt (t : Fin cfg0.N) : t.val < 72 :=
  lt_of_lt_of_eq (b := grid0.N) t.isLt N_0

/-- Row `p` of point `t`'s block is row `256 t + p` of the array. -/
def rowAt (t : Fin cfg0.N) (p : Fin 256) : Fin 18432 := ⟨t.val * 256 + p.val, by have := point_lt t; have := p.isLt; omega⟩

variable (m : (ℓ : Loc nD τ sig) → Buf (Elt Ideal) ℓ)

/-- Window 0's block at point `t`, at `(p, k)`: the array's row `256 t + p`. -/
theorem read0 (c : Dev nD) (t : Fin cfg0.N) (p : Fin 256) (k : Fin 1024) :
    iblk m c 0 t (ix2 p k) = (V m c main_v40 : S18432x1024.Idx → EReal) (ix2 (rowAt t p) k) := by
  obtain ⟨e0, e1, e2, e3, e4, e5, e6, e7, e8, e9, e10, e11, e12, e13, e14, e15, e16, e17⟩ := idx_facts t
  unfold iblk
  show V m c main_v40 (((cfg0.win 0).blk t).view.emb (ix2 p k)) = _
  refine congrArg (V m c main_v40) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- Window 1's block at point `t`, at `(p, k)`: the array's row `256 t + p`. -/
theorem read1 (c : Dev nD) (t : Fin cfg0.N) (p : Fin 256) (k : Fin 1024) :
    iblk m c 1 t (ix2 p k) = (V m c main_v41 : S18432x1024.Idx → EReal) (ix2 (rowAt t p) k) := by
  obtain ⟨e0, e1, e2, e3, e4, e5, e6, e7, e8, e9, e10, e11, e12, e13, e14, e15, e16, e17⟩ := idx_facts t
  unfold iblk
  show V m c main_v41 (((cfg0.win 1).blk t).view.emb (ix2 p k)) = _
  refine congrArg (V m c main_v41) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- Window 2's block at point `t`, at `(p, k)`: the array's row `256 t + p`. -/
theorem read2 (c : Dev nD) (t : Fin cfg0.N) (p : Fin 256) (k : Fin 1) :
    iblk m c 2 t (ix2 p k) = (V m c main_v42 : S18432x1.Idx → EReal) (ix2 (rowAt t p) k) := by
  obtain ⟨e0, e1, e2, e3, e4, e5, e6, e7, e8, e9, e10, e11, e12, e13, e14, e15, e16, e17⟩ := idx_facts t
  unfold iblk
  show V m c main_v42 (((cfg0.win 2).blk t).view.emb (ix2 p k)) = _
  refine congrArg (V m c main_v42) (funext fun a => Fin.ext ?_)
  match a with
  | ⟨0, _⟩ => show win0_2.index t (0 : Fin 2) * 256 + 1 * p.val = t.val * 256 + p.val; omega
  | ⟨1, _⟩ => show win0_2.index t (1 : Fin 2) * 1 + 1 * k.val = k.val; omega

/-- Window 3 is its whole array at every point. -/
theorem read3 (c : Dev nD) (t : Fin cfg0.N) (k : Fin 1024) :
    iblk m c 3 t (ix1 k) = (V m c main_arg4 : S1024.Idx → EReal) (ix1 k) := by
  obtain ⟨e0, e1, e2, e3, e4, e5, e6, e7, e8, e9, e10, e11, e12, e13, e14, e15, e16, e17⟩ := idx_facts t
  unfold iblk
  show V m c main_arg4 (((cfg0.win 3).blk t).view.emb (ix1 k)) = _
  refine congrArg (V m c main_arg4) (funext fun a => Fin.ext ?_)
  match a with
  | ⟨0, _⟩ => show win0_3.index t (0 : Fin 1) * 1024 + 1 * k.val = k.val; omega

/-- Window 4 is its whole array at every point. -/
theorem read4 (c : Dev nD) (t : Fin cfg0.N) (k : Fin 1024) :
    iblk m c 4 t (ix1 k) = (V m c main_arg5 : S1024.Idx → EReal) (ix1 k) := by
  obtain ⟨e0, e1, e2, e3, e4, e5, e6, e7, e8, e9, e10, e11, e12, e13, e14, e15, e16, e17⟩ := idx_facts t
  unfold iblk
  show V m c main_arg5 (((cfg0.win 4).blk t).view.emb (ix1 k)) = _
  refine congrArg (V m c main_arg5) (funext fun a => Fin.ext ?_)
  match a with
  | ⟨0, _⟩ => show win0_4.index t (0 : Fin 1) * 1024 + 1 * k.val = k.val; omega

/-- Window 5 is its whole array at every point. -/
theorem read5 (c : Dev nD) (t : Fin cfg0.N) (k : Fin 1024) :
    iblk m c 5 t (ix1 k) = (V m c main_arg6 : S1024.Idx → EReal) (ix1 k) := by
  obtain ⟨e0, e1, e2, e3, e4, e5, e6, e7, e8, e9, e10, e11, e12, e13, e14, e15, e16, e17⟩ := idx_facts t
  unfold iblk
  show V m c main_arg6 (((cfg0.win 5).blk t).view.emb (ix1 k)) = _
  refine congrArg (V m c main_arg6) (funext fun a => Fin.ext ?_)
  match a with
  | ⟨0, _⟩ => show win0_5.index t (0 : Fin 1) * 1024 + 1 * k.val = k.val; omega

/-- Window 6 is its whole array at every point. -/
theorem read6 (c : Dev nD) (t : Fin cfg0.N) (k : Fin 1024) :
    iblk m c 6 t (ix1 k) = (V m c main_arg7 : S1024.Idx → EReal) (ix1 k) := by
  obtain ⟨e0, e1, e2, e3, e4, e5, e6, e7, e8, e9, e10, e11, e12, e13, e14, e15, e16, e17⟩ := idx_facts t
  unfold iblk
  show V m c main_arg7 (((cfg0.win 6).blk t).view.emb (ix1 k)) = _
  refine congrArg (V m c main_arg7) (funext fun a => Fin.ext ?_)
  match a with
  | ⟨0, _⟩ => show win0_6.index t (0 : Fin 1) * 1024 + 1 * k.val = k.val; omega

/-- Window 8 is its whole array at every point. -/
theorem read8 (c : Dev nD) (t : Fin cfg0.N) (k : Fin 4096) :
    iblk m c 8 t (ix1 k) = (V m c main_arg9 : S4096.Idx → EReal) (ix1 k) := by
  obtain ⟨e0, e1, e2, e3, e4, e5, e6, e7, e8, e9, e10, e11, e12, e13, e14, e15, e16, e17⟩ := idx_facts t
  unfold iblk
  show V m c main_arg9 (((cfg0.win 8).blk t).view.emb (ix1 k)) = _
  refine congrArg (V m c main_arg9) (funext fun a => Fin.ext ?_)
  match a with
  | ⟨0, _⟩ => show win0_8.index t (0 : Fin 1) * 4096 + 1 * k.val = k.val; omega

/-- Window 10 is its whole array at every point. -/
theorem read10 (c : Dev nD) (t : Fin cfg0.N) (k : Fin 1024) :
    iblk m c 10 t (ix1 k) = (V m c main_arg11 : S1024.Idx → EReal) (ix1 k) := by
  obtain ⟨e0, e1, e2, e3, e4, e5, e6, e7, e8, e9, e10, e11, e12, e13, e14, e15, e16, e17⟩ := idx_facts t
  unfold iblk
  show V m c main_arg11 (((cfg0.win 10).blk t).view.emb (ix1 k)) = _
  refine congrArg (V m c main_arg11) (funext fun a => Fin.ext ?_)
  match a with
  | ⟨0, _⟩ => show win0_10.index t (0 : Fin 1) * 1024 + 1 * k.val = k.val; omega

/-- Window 7 is its whole array at every point. -/
theorem read7 (c : Dev nD) (t : Fin cfg0.N) (k : Fin 1024) (j : Fin 4096) :
    iblk m c 7 t (ix2 k j) = (V m c main_v43 : S1024x4096.Idx → EReal) (ix2 k j) := by
  obtain ⟨e0, e1, e2, e3, e4, e5, e6, e7, e8, e9, e10, e11, e12, e13, e14, e15, e16, e17⟩ := idx_facts t
  unfold iblk
  show V m c main_v43 (((cfg0.win 7).blk t).view.emb (ix2 k j)) = _
  refine congrArg (V m c main_v43) (funext fun a => Fin.ext ?_)
  match a with
  | ⟨0, _⟩ => show win0_7.index t (0 : Fin 2) * 1024 + 1 * k.val = k.val; omega
  | ⟨1, _⟩ => show win0_7.index t (1 : Fin 2) * 4096 + 1 * j.val = j.val; omega

/-- Window 9 is its whole array at every point. -/
theorem read9 (c : Dev nD) (t : Fin cfg0.N) (k : Fin 4096) (j : Fin 1024) :
    iblk m c 9 t (ix2 k j) = (V m c main_v44 : S4096x1024.Idx → EReal) (ix2 k j) := by
  obtain ⟨e0, e1, e2, e3, e4, e5, e6, e7, e8, e9, e10, e11, e12, e13, e14, e15, e16, e17⟩ := idx_facts t
  unfold iblk
  show V m c main_v44 (((cfg0.win 9).blk t).view.emb (ix2 k j)) = _
  refine congrArg (V m c main_v44) (funext fun a => Fin.ext ?_)
  match a with
  | ⟨0, _⟩ => show win0_9.index t (0 : Fin 2) * 4096 + 1 * k.val = k.val; omega
  | ⟨1, _⟩ => show win0_9.index t (1 : Fin 2) * 1024 + 1 * j.val = j.val; omega

end Cert.BlockReads

end
-- ==== Proof.LibDotRow.lean ====
/-
  A matrix product with ONE contracted axis, read at an index, as a sum over the contracted coordinate.

  For dimension numbers `d` of an [M, K] by [K, N] product into [M, N] — the left operand contracted on its
  second axis, the right one on its first — the sum over the contraction index set of
  `L (d.lhsIdx (p, f) k) * R (d.rhsIdx (p, f) k)` is `∑ k : Fin K, L (p, k) * R (k, f)`: the contraction index
  is its one coordinate, the left operand's row is the output's row and the right operand's column the
  output's column. The matrix unit's product into a zero accumulator and the host's `dot_general`, read at
  the exact values, are both that sum.
-/
import Idealize.ShloMosaic.Lib.ValueIdx
import Idealize.ShloMosaic.PureOps.Ideal.Laws

noncomputable section

namespace Idealize.ShloMosaic.DotRow

open Idealize.ShloMosaic Idealize.ShloMosaic.ValueIdx

variable {M K N : Nat}

/-- The contraction's sum over its index set is the sum over the contracted coordinate. -/
theorem sum_contr (d : DotDims ⟨2, ![M, K]⟩ ⟨2, ![K, N]⟩ ⟨2, ![M, N]⟩)
    (hl : d.lhsContracting = [1]) (hr : d.rhsContracting = [0])
    (hrank : d.contr.rank = 1) (hsize : d.contr.size ⟨0, by omega⟩ = K)
    (h0 : ∀ (j : (⟨2, ![M, N]⟩ : Shape).Idx) (k : d.contr.Idx), (d.lhsIdx j k 0).val = (j 0).val)
    (h1 : ∀ (j : (⟨2, ![M, N]⟩ : Shape).Idx) (k : d.contr.Idx), (d.rhsIdx j k 1).val = (j 1).val)
    (L : (⟨2, ![M, K]⟩ : Shape).Idx → EReal) (R : (⟨2, ![K, N]⟩ : Shape).Idx → EReal) (p : Fin M) (f : Fin N) :
    ∑ k : d.contr.Idx, L (d.lhsIdx (ix2 p f) k) * R (d.rhsIdx (ix2 p f) k) = ∑ k : Fin K, L (ix2 p k) * R (ix2 k f) := by
  rw [← Equiv.sum_comp (contrEquiv1 d K hrank hsize).symm]
  refine Finset.sum_congr rfl fun k _ => ?_
  have el : d.lhsIdx (ix2 p f) ((contrEquiv1 d K hrank hsize).symm k) = ix2 p k := by
    funext a; apply Fin.ext
    match a with
    | ⟨0, _⟩ => exact h0 _ _
    | ⟨1, _⟩ =>
      show (d.lhsIdx (ix2 p f) ((contrEquiv1 d K hrank hsize).symm k) 1).val = k.val
      rw [d.lhsIdx_val_of_single hl]
      exact contrEquiv1_symm_val d K hrank hsize k
  have er : d.rhsIdx (ix2 p f) ((contrEquiv1 d K hrank hsize).symm k) = ix2 k f := by
    funext a; apply Fin.ext
    match a with
    | ⟨0, _⟩ =>
      show (d.rhsIdx (ix2 p f) ((contrEquiv1 d K hrank hsize).symm k) 0).val = k.val
      rw [d.rhsIdx_val_of_single hr]
      exact contrEquiv1_symm_val d K hrank hsize k
    | ⟨1, _⟩ => exact h1 _ _
  rw [el, er]

end Idealize.ShloMosaic.DotRow

end
-- ==== Proof.LibColumnCast.lean ====
/-
  A vector `[a]` reshaped to a column `[a, 1]` reads, at `(i, u)`, the vector at `i`.
-/
import Idealize.ShloMosaic.Lib.ValueLayout
import Idealize.ShloMosaic.Lib.Pipeline.Value

namespace Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibColumnBroadcast.lean ====
/-
  Column broadcasts read at an index, beside the library's row broadcast: a `[a, 1]` array broadcast to `[a, b]` reads, at `(p, c)`,
  the operand's one column at row `p`.
-/
import Idealize.ShloMosaic.Lib.ValueLayout
import Idealize.ShloMosaic.Lib.Pipeline.Value

namespace Idealize.ShloMosaic.ValueIdx

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.TileRows.lean ====
/-
  Row operations on a tile of 128 rows, read at one entry.

  The kernel works on tiles of 128 rows. Everything it does to a tile is row-wise: a sum along a row kept
  as a one-column tile, a one-column tile spread along the rows, a parameter vector laid along every row, and
  two products with a weight matrix, contracted over the row. Each is read here at the entry `(r, f)`, as
  a function of row `r` of the operand alone.
-/
import proofs.«172532_j77592879170023_2_alg».proof.Proof.Gen.KernelIdeal.Skeleton
import proofs.«172532_j77592879170023_2_alg».proof.Proof.LibDotRow
import proofs.«172532_j77592879170023_2_alg».proof.Proof.LibColumnCast
import proofs.«172532_j77592879170023_2_alg».proof.Proof.LibColumnBroadcast
import proofs.«172532_j77592879170023_2_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

namespace Cert.TileRows

open Cert.KernelIdeal Cert.KernelIdeal.Facts₀ Cert.KernelIdeal.Facts Idealize.ShloMosaic Idealize.ShloMosaic.ValueIdx

/-- The source index of a row sum: entry `k` of row `r`. -/
theorem lift_row (r : Fin 128) (k : Fin 1024) :
    reduces_S128x1024_S128.lift (ix1 r) k = ix2 r k := by
  funext c; apply Fin.ext; match c with | ⟨0, _⟩ => rfl | ⟨1, _⟩ => rfl

/-- A row sum kept as a one-column tile: at `(r, u)` it is the sum of row `r`. -/
theorem col_sum (y : FVec Ideal S128x1024 .f32) (r : Fin 128) (u : Fin 1) :
    shapeCast S128x1 (multiReduction .add [1] S128 y 0x00000000#32 reduces_S128x1024_S128 (.inl rfl) rfl) shapeCasts_S128_S128x1 (ix2 r u)
      = ∑ k : Fin 1024, y (ix2 r k) := by
  refine (shapeCast_a_a1_apply _ shapeCasts_S128_S128x1 r u).trans ?_
  refine (Ideal.multiReduction_add_single y 0x00000000#32 reduces_S128x1024_S128 (.inl rfl) rfl (ix1 r)).trans ?_
  exact Finset.sum_congr rfl fun k _ => congrArg y (lift_row r k)

/-- A one-column tile spread along the rows: at `(r, f)` it is the column's entry of row `r`. -/
theorem col_spread (c : FVec Ideal S128x1 .f32) (r : Fin 128) (f : Fin 1024) :
    broadcastTo S128x1024 c broadcasts_S128x1_S128x1024 (ix2 r f) = c (ix2 r (0 : Fin 1)) :=
  broadcastTo_a1_ab_apply c broadcasts_S128x1_S128x1024 r f

/-- A parameter vector of 1024 entries laid along every row: at `(r, f)` it is entry `f`. -/
theorem row_param (g : Vec Ideal S1024 .f32) (r : Fin 128) (f : Fin 1024) :
    broadcastTo S128x1024 (shapeCast S1x1024 g shapeCasts_S1024_S1x1024) broadcasts_S1x1024_S128x1024 (ix2 r f) = g (ix1 f) :=
  (broadcastTo_1b_ab_apply _ broadcasts_S1x1024_S128x1024 r f).trans (shapeCast_a_1a_apply g shapeCasts_S1024_S1x1024 0 f)

/-- The same for the hidden layer's 4096 entries. -/
theorem row_param_hidden (g : Vec Ideal S4096 .f32) (r : Fin 128) (j : Fin 4096) :
    broadcastTo S128x4096 (shapeCast S1x4096 g shapeCasts_S4096_S1x4096) broadcasts_S1x4096_S128x4096 (ix2 r j) = g (ix1 j) :=
  (broadcastTo_1b_ab_apply _ broadcasts_S1x4096_S128x4096 r j).trans (shapeCast_a_1a_apply g shapeCasts_S4096_S1x4096 0 j)

/-- The product with the first weight matrix, into a zero accumulator: at `(r, j)` it is row `r` of the left
    operand against column `j` of the right one. -/
theorem into_hidden (L : FVec Ideal S128x1024 .bf16) (R : FVec Ideal S1024x4096 .bf16) (r : Fin 128) (j : Fin 4096) :
    matmul dot_S128x1024_S1024x4096_S128x4096_1_0_0_1_n_n none L R (constant S128x4096 .f32 0x00000000#32) (ix2 r j)
      = ∑ k : Fin 1024, L (ix2 r k) * R (ix2 k j) := by
  refine (Ideal.matmul_constant_zero_apply dot_S128x1024_S1024x4096_S128x4096_1_0_0_1_n_n none L R (ix2 r j)).trans ?_
  exact DotRow.sum_contr dot_S128x1024_S1024x4096_S128x4096_1_0_0_1_n_n rfl rfl rfl rfl
    (fun i q => by
      unfold DotDims.lhsIdx
      rw [dif_neg (show ¬(0 : Fin S128x1024.rank) ∈ dot_S128x1024_S1024x4096_S128x4096_1_0_0_1_n_n.lhsBatch by decide),
        dif_pos (show (0 : Fin S128x1024.rank) ∈ dot_S128x1024_S1024x4096_S128x4096_1_0_0_1_n_n.lhsNonContracting by decide)]
      rfl)
    (fun i q => by
      unfold DotDims.rhsIdx
      rw [dif_neg (show ¬(1 : Fin S1024x4096.rank) ∈ dot_S128x1024_S1024x4096_S128x4096_1_0_0_1_n_n.rhsBatch by decide),
        dif_pos (show (1 : Fin S1024x4096.rank) ∈ dot_S128x1024_S1024x4096_S128x4096_1_0_0_1_n_n.rhsNonContracting by decide)]
      rfl)
    L R r j

/-- The product with the second weight matrix, likewise: at `(r, f)` row `r` against column `f`. -/
theorem out_of_hidden (L : FVec Ideal S128x4096 .bf16) (R : FVec Ideal S4096x1024 .bf16) (r : Fin 128) (f : Fin 1024) :
    matmul dot_S128x4096_S4096x1024_S128x1024_1_0_0_1_n_n none L R (constant S128x1024 .f32 0x00000000#32) (ix2 r f)
      = ∑ j : Fin 4096, L (ix2 r j) * R (ix2 j f) := by
  refine (Ideal.matmul_constant_zero_apply dot_S128x4096_S4096x1024_S128x1024_1_0_0_1_n_n none L R (ix2 r f)).trans ?_
  exact DotRow.sum_contr dot_S128x4096_S4096x1024_S128x1024_1_0_0_1_n_n rfl rfl rfl rfl
    (fun i q => by
      unfold DotDims.lhsIdx
      rw [dif_neg (show ¬(0 : Fin S128x4096.rank) ∈ dot_S128x4096_S4096x1024_S128x1024_1_0_0_1_n_n.lhsBatch by decide),
        dif_pos (show (0 : Fin S128x4096.rank) ∈ dot_S128x4096_S4096x1024_S128x1024_1_0_0_1_n_n.lhsNonContracting by decide)]
      rfl)
    (fun i q => by
      unfold DotDims.rhsIdx
      rw [dif_neg (show ¬(1 : Fin S4096x1024.rank) ∈ dot_S128x4096_S4096x1024_S128x1024_1_0_0_1_n_n.rhsBatch by decide),
        dif_pos (show (1 : Fin S4096x1024.rank) ∈ dot_S128x4096_S4096x1024_S128x1024_1_0_0_1_n_n.rhsNonContracting by decide)]
      rfl)
    L R r f

/-! ## The same facts as equalities of whole tiles

Row-wise operations named once, as functions of whole tiles; each printed operation IS one of them. -/

/-- Each row's sum, as a one-column tile. -/
def rowSum (y : S128x1024.Idx → EReal) : S128x1.Idx → EReal := fun i => ∑ k : Fin 1024, y (ix2 (show Fin 128 from i 0) k)
/-- A one-column tile spread along the rows. -/
def spreadCol (c : S128x1.Idx → EReal) : S128x1024.Idx → EReal := fun i => c (ix2 (show Fin 128 from i 0) (0 : Fin 1))
/-- A vector of 1024 entries laid along every row. -/
def spreadRow (g : S1024.Idx → EReal) : S128x1024.Idx → EReal := fun i => g (ix1 (show Fin 1024 from i 1))
/-- A vector of 4096 entries laid along every row. -/
def spreadRowM (g : S4096.Idx → EReal) : S128x4096.Idx → EReal := fun i => g (ix1 (show Fin 4096 from i 1))
/-- Each row times the first weight matrix. -/
def timesW1 (L : S128x1024.Idx → EReal) (R : S1024x4096.Idx → EReal) : S128x4096.Idx → EReal :=
  fun i => ∑ k : Fin 1024, L (ix2 (show Fin 128 from i 0) k) * R (ix2 k (show Fin 4096 from i 1))
/-- Each row times the second weight matrix. -/
def timesW2 (L : S128x4096.Idx → EReal) (R : S4096x1024.Idx → EReal) : S128x1024.Idx → EReal :=
  fun i => ∑ j : Fin 4096, L (ix2 (show Fin 128 from i 0) j) * R (ix2 j (show Fin 1024 from i 1))

theorem rowSum_at (y : S128x1024.Idx → EReal) (r : Fin 128) (u : Fin 1) : rowSum y (ix2 r u) = ∑ k : Fin 1024, y (ix2 r k) := rfl
theorem spreadCol_at (c : S128x1.Idx → EReal) (r : Fin 128) (f : Fin 1024) : spreadCol c (ix2 r f) = c (ix2 r (0 : Fin 1)) := rfl
theorem spreadRow_at (g : S1024.Idx → EReal) (r : Fin 128) (f : Fin 1024) : spreadRow g (ix2 r f) = g (ix1 f) := rfl
theorem spreadRowM_at (g : S4096.Idx → EReal) (r : Fin 128) (j : Fin 4096) : spreadRowM g (ix2 r j) = g (ix1 j) := rfl
theorem timesW1_at (L : S128x1024.Idx → EReal) (R : S1024x4096.Idx → EReal) (r : Fin 128) (j : Fin 4096) :
    timesW1 L R (ix2 r j) = ∑ k : Fin 1024, L (ix2 r k) * R (ix2 k j) := rfl
theorem timesW2_at (L : S128x4096.Idx → EReal) (R : S4096x1024.Idx → EReal) (r : Fin 128) (f : Fin 1024) :
    timesW2 L R (ix2 r f) = ∑ j : Fin 4096, L (ix2 r j) * R (ix2 j f) := rfl

theorem col_sum_fn (y : FVec Ideal S128x1024 .f32) :
    shapeCast S128x1 (multiReduction .add [1] S128 y 0x00000000#32 reduces_S128x1024_S128 (.inl rfl) rfl) shapeCasts_S128_S128x1 = rowSum y := by
  funext i
  obtain ⟨r, u, rfl⟩ : ∃ (r : Fin 128) (u : Fin 1), i = ix2 r u := ⟨i 0, i 1, eq_ix2 i⟩
  exact col_sum y r u

theorem col_spread_fn (c : FVec Ideal S128x1 .f32) :
    broadcastTo S128x1024 c broadcasts_S128x1_S128x1024 = spreadCol c := by
  funext i
  obtain ⟨r, f, rfl⟩ : ∃ (r : Fin 128) (f : Fin 1024), i = ix2 r f := ⟨i 0, i 1, eq_ix2 i⟩
  exact col_spread c r f

theorem row_param_fn (g : Vec Ideal S1024 .f32) :
    broadcastTo S128x1024 (shapeCast S1x1024 g shapeCasts_S1024_S1x1024) broadcasts_S1x1024_S128x1024 = spreadRow g := by
  funext i
  obtain ⟨r, f, rfl⟩ : ∃ (r : Fin 128) (f : Fin 1024), i = ix2 r f := ⟨i 0, i 1, eq_ix2 i⟩
  exact row_param g r f

theorem row_param_hidden_fn (g : Vec Ideal S4096 .f32) :
    broadcastTo S128x4096 (shapeCast S1x4096 g shapeCasts_S4096_S1x4096) broadcasts_S1x4096_S128x4096 = spreadRowM g := by
  funext i
  obtain ⟨r, j, rfl⟩ : ∃ (r : Fin 128) (j : Fin 4096), i = ix2 r j := ⟨i 0, i 1, eq_ix2 i⟩
  exact row_param_hidden g r j

theorem into_hidden_fn (L : FVec Ideal S128x1024 .bf16) (R : FVec Ideal S1024x4096 .bf16) :
    matmul dot_S128x1024_S1024x4096_S128x4096_1_0_0_1_n_n none L R (constant S128x4096 .f32 0x00000000#32) = timesW1 L R := by
  funext i
  obtain ⟨r, j, rfl⟩ : ∃ (r : Fin 128) (j : Fin 4096), i = ix2 r j := ⟨i 0, i 1, eq_ix2 i⟩
  exact into_hidden L R r j

theorem out_of_hidden_fn (L : FVec Ideal S128x4096 .bf16) (R : FVec Ideal S4096x1024 .bf16) :
    matmul dot_S128x4096_S4096x1024_S128x1024_1_0_0_1_n_n none L R (constant S128x1024 .f32 0x00000000#32) = timesW2 L R := by
  funext i
  obtain ⟨r, f, rfl⟩ : ∃ (r : Fin 128) (f : Fin 1024), i = ix2 r f := ⟨i 0, i 1, eq_ix2 i⟩
  exact out_of_hidden L R r f

end Cert.TileRows

end
-- ==== Proof.TilePay.lean ====
/-
  The kernel's payloads, read at one entry of a 128-row tile.

  The body handles its 256-row block as two tiles of 128 rows. For each tile it computes, row by row, the row
  function in the kernel's spelling (the norm multiplying by the reciprocal root): of the row of the two input
  tiles' sum, the tile's gate column at that row, and the parameters.
-/
import proofs.«172532_j77592879170023_2_alg».proof.Proof.Gen.KernelIdeal.Skeleton
import proofs.«172532_j77592879170023_2_alg».proof.Proof.TileRows
import proofs.«172532_j77592879170023_2_alg».proof.Proof.RowMath

noncomputable section

namespace Cert.TilePay

open Cert.KernelIdeal Cert.KernelIdeal.Facts₀ Cert.KernelIdeal.Facts Cert.KernelIdeal.Gen Cert.TileRows Cert.RowMath
open Idealize.ShloMosaic Idealize.ShloMosaic.ValueIdx

/-- A parameter vector as a function of its one coordinate. -/
abbrev vec (g : Vec Ideal S1024 .f32) : Fin 1024 → EReal := fun k => g (ix1 k)
abbrev vecM (g : Vec Ideal S4096 .f32) : Fin 4096 → EReal := fun k => g (ix1 k)
abbrev mat1 (W : FVec Ideal S1024x4096 .bf16) : Fin 1024 → Fin 4096 → EReal := fun k j => W (ix2 k j)
abbrev mat2 (W : FVec Ideal S4096x1024 .bf16) : Fin 4096 → Fin 1024 → EReal := fun j f => W (ix2 j f)

/-- Row `r` of the sum of two tiles. -/
abbrev xrow (V Q : S128x1024.Idx → EReal) (r : Fin 128) : Fin 1024 → EReal := fun k => V (ix2 r k) + Q (ix2 r k)

theorem rsqrt_at {s : Shape} (v : FVec Ideal s .f32) (i : s.Idx) : rsqrt v i = Ideal.rsqrt (v i) := rfl

theorem scalar_word (w : BitVec 32) : (Scalar.ofBits .f32 w : Ideal .f32) = Ideal.ofBits .f32 w := rfl

/-! ## The first tile (rows 0 to 127 of the block) -/

/-- The first norm before its bias, at `(r, f)`. -/
theorem pre_norm (g1 : Vec Ideal S1024 .f32) (V Q : Vec Ideal S128x1024 .f32) (r : Fin 128) (f : Fin 1024) :
    k0_pay5 (F := Ideal) g1 V Q (ix2 r f)
      = g1 (ix1 f) * dev (xrow V Q r) f * Ideal.rsqrt (rootArg (xrow V Q r)) := by
  unfold k0_pay5
  simp only [shapeCast_self]
  repeat rw [row_param_fn]
  repeat rw [row_param_hidden_fn]
  repeat rw [into_hidden_fn]
  repeat rw [out_of_hidden_fn]
  repeat rw [col_sum_fn]
  repeat rw [col_spread_fn]
  simp only [mulf_apply, addf_apply, subf_apply, divf_apply, maximumf_apply, truncf_apply, broadcast_apply, rsqrt_at, scalar_word,
    rowSum_at, spreadCol_at, spreadRow_at, spreadRowM_at, timesW1_at, timesW2_at, Ideal.ofBits_zero_f32]
  rfl

/-- Everything after it, over ANY tile `P` standing for the first norm before its bias. -/
theorem rest_of_row (b1 g2 b2 : Vec Ideal S1024 .f32) (c1 : Vec Ideal S4096 .f32) (c2 : Vec Ideal S1024 .f32)
    (W1 : FVec Ideal S1024x4096 .bf16) (W2 : FVec Ideal S4096x1024 .bf16) (Wc : FVec Ideal S128x1 .f32)
    (P : FVec Ideal S128x1024 .f32) (r : Fin 128) (f : Fin 1024) :
    k0_pay6 (F := Ideal) b1 g2 b2 c1 c2 W1 W2 Wc P (ix2 r f)
      = normK (vec g2) (vec b2)
          (resid (fun k => Wc (ix2 r (0 : Fin 1)) * (P (ix2 r k) + b1 (ix1 k))) (mat1 W1) (vecM c1) (mat2 W2) (vec c2)) f := by
  unfold k0_pay6
  simp only [shapeCast_self]
  repeat rw [row_param_fn]
  repeat rw [row_param_hidden_fn]
  repeat rw [into_hidden_fn]
  repeat rw [out_of_hidden_fn]
  repeat rw [col_sum_fn]
  repeat rw [col_spread_fn]
  simp only [mulf_apply, addf_apply, subf_apply, divf_apply, maximumf_apply, truncf_apply, broadcast_apply, rsqrt_at, scalar_word,
    rowSum_at, spreadCol_at, spreadRow_at, spreadRowM_at, timesW1_at, timesW2_at, Ideal.ofBits_zero_f32]
  rfl

/-- The first tile's store, at `(r, f)`: the row function of row `r`. -/
theorem first_tile (g1 b1 g2 b2 : Vec Ideal S1024 .f32) (c1 : Vec Ideal S4096 .f32) (c2 : Vec Ideal S1024 .f32)
    (W1 : Vec Ideal S1024x4096 .bf16) (W2 : Vec Ideal S4096x1024 .bf16) (V Q : Vec Ideal S128x1024 .f32) (Wc : Vec Ideal S128x1 .f32)
    (r : Fin 128) (f : Fin 1024) :
    k0_pay6 (F := Ideal) b1 g2 b2 c1 c2 (k0_pay2 W1) (k0_pay3 W2) (k0_pay4 Wc) (k0_pay5 g1 V Q) (ix2 r f)
      = row normK (xrow V Q r) (Wc (ix2 r (0 : Fin 1))) (vec g1) (vec b1) (vec g2) (vec b2) (mat1 W1) (vecM c1) (mat2 W2) (vec c2) f := by
  rw [rest_of_row]
  unfold row
  refine congrArg (fun y => normK (vec g2) (vec b2) y f) ?_
  have e2 : k0_pay2 (F := Ideal) W1 = W1 := by unfold k0_pay2; exact shapeCast_self _ _
  have e3 : k0_pay3 (F := Ideal) W2 = W2 := by unfold k0_pay3; exact shapeCast_self _ _
  have e4 : k0_pay4 (F := Ideal) Wc = Wc := by unfold k0_pay4; exact shapeCast_self _ _
  rw [e2, e3, e4]
  refine congrArg (fun u => resid u (mat1 W1) (vecM c1) (mat2 W2) (vec c2)) (funext fun k => ?_)
  rw [pre_norm]
  rfl

/-! ## The second tile (rows 128 to 255 of the block)

Here the body's text is cut differently: one piece computes the residual sum of the tile, a second one that sum's row
means (over the same text), and the last the closing norm from those two. -/

/-- The residual sum of the second tile at `(r, f)`. -/
theorem second_resid (g1 b1 : Vec Ideal S1024 .f32) (c1 : Vec Ideal S4096 .f32) (c2 : Vec Ideal S1024 .f32)
    (W1 : FVec Ideal S1024x4096 .bf16) (W2 : FVec Ideal S4096x1024 .bf16) (Vt : FVec Ideal S128x1024 .f32)
    (Q : Vec Ideal S128x1024 .f32) (Wc : Vec Ideal S128x1 .f32) (r : Fin 128) (f : Fin 1024) :
    k0_pay8 (F := Ideal) g1 b1 c1 c2 W1 W2 Vt Q Wc (ix2 r f)
      = resid (fun k => Wc (ix2 r (0 : Fin 1)) * normK (vec g1) (vec b1) (xrow Vt Q r) k) (mat1 W1) (vecM c1) (mat2 W2) (vec c2) f := by
  unfold k0_pay8
  simp only [shapeCast_self]
  repeat rw [row_param_fn]
  repeat rw [row_param_hidden_fn]
  repeat rw [into_hidden_fn]
  repeat rw [out_of_hidden_fn]
  repeat rw [col_sum_fn]
  repeat rw [col_spread_fn]
  simp only [mulf_apply, addf_apply, subf_apply, divf_apply, maximumf_apply, truncf_apply, broadcast_apply, rsqrt_at, scalar_word,
    rowSum_at, spreadCol_at, spreadRow_at, spreadRowM_at, timesW1_at, timesW2_at, Ideal.ofBits_zero_f32]
  rfl

/-- Its row means: the second piece is the first one's row sums divided by 1024. -/
theorem second_mean (g1 b1 : Vec Ideal S1024 .f32) (c1 : Vec Ideal S4096 .f32) (c2 : Vec Ideal S1024 .f32)
    (W1 : FVec Ideal S1024x4096 .bf16) (W2 : FVec Ideal S4096x1024 .bf16) (Vt : FVec Ideal S128x1024 .f32)
    (Q : Vec Ideal S128x1024 .f32) (Wc : Vec Ideal S128x1 .f32) (r : Fin 128) (u : Fin 1) :
    k0_pay9 (F := Ideal) g1 b1 c1 c2 W1 W2 Vt Q Wc (ix2 r u)
      = mean (fun k => k0_pay8 (F := Ideal) g1 b1 c1 c2 W1 W2 Vt Q Wc (ix2 r k)) := by
  show divf (shapeCast S128x1 (multiReduction .add [1] S128 (k0_pay8 (F := Ideal) g1 b1 c1 c2 W1 W2 Vt Q Wc) 0x00000000#32
      Facts₀.reduces_S128x1024_S128 (.inl rfl) rfl) Facts₀.shapeCasts_S128_S128x1) (broadcast S128x1 (Scalar.ofBits .f32 0x44800000#32)) (ix2 r u) = _
  rw [col_sum_fn]
  rfl

/-- The closing norm over ANY tile `Y` and any column `M` that holds `Y`'s row mean at row `r`. -/
theorem last_norm (g2 b2 : Vec Ideal S1024 .f32) (Y : FVec Ideal S128x1024 .f32) (M : FVec Ideal S128x1 .f32)
    (r : Fin 128) (f : Fin 1024) (hM : M (ix2 r (0 : Fin 1)) = mean (fun k => Y (ix2 r k))) :
    k0_pay1 (F := Ideal) g2 b2 Y M (ix2 r f) = normK (vec g2) (vec b2) (fun k => Y (ix2 r k)) f := by
  unfold k0_pay1
  simp only [shapeCast_self]
  repeat rw [row_param_fn]
  repeat rw [row_param_hidden_fn]
  repeat rw [into_hidden_fn]
  repeat rw [out_of_hidden_fn]
  repeat rw [col_sum_fn]
  repeat rw [col_spread_fn]
  simp only [mulf_apply, addf_apply, subf_apply, divf_apply, maximumf_apply, truncf_apply, broadcast_apply, rsqrt_at, scalar_word,
    rowSum_at, spreadCol_at, spreadRow_at, spreadRowM_at, timesW1_at, timesW2_at, Ideal.ofBits_zero_f32]
  rw [hM]
  rfl

/-- The second tile's store, at `(r, f)`: the row function of row `r`. -/
theorem second_tile (g1 b1 g2 b2 : Vec Ideal S1024 .f32) (c1 : Vec Ideal S4096 .f32) (c2 : Vec Ideal S1024 .f32)
    (W1 : Vec Ideal S1024x4096 .bf16) (W2 : Vec Ideal S4096x1024 .bf16) (V Q : Vec Ideal S128x1024 .f32) (Wc : Vec Ideal S128x1 .f32)
    (r : Fin 128) (f : Fin 1024) :
    k0_pay1 (F := Ideal) g2 b2 (k0_pay8 g1 b1 c1 c2 (k0_pay2 W1) (k0_pay3 W2) (k0_pay7 V) Q Wc)
        (k0_pay9 g1 b1 c1 c2 (k0_pay2 W1) (k0_pay3 W2) (k0_pay7 V) Q Wc) (ix2 r f)
      = row normK (xrow V Q r) (Wc (ix2 r (0 : Fin 1))) (vec g1) (vec b1) (vec g2) (vec b2) (mat1 W1) (vecM c1) (mat2 W2) (vec c2) f := by
  have e2 : k0_pay2 (F := Ideal) W1 = W1 := by unfold k0_pay2; exact shapeCast_self _ _
  have e3 : k0_pay3 (F := Ideal) W2 = W2 := by unfold k0_pay3; exact shapeCast_self _ _
  have e7 : k0_pay7 (F := Ideal) V = V := by unfold k0_pay7; exact shapeCast_self _ _
  rw [e2, e3, e7, last_norm g2 b2 _ _ r f (second_mean g1 b1 c1 c2 W1 W2 V Q Wc r 0)]
  unfold row
  exact congrArg (fun y => normK (vec g2) (vec b2) y f) (funext fun k => second_resid g1 b1 c1 c2 W1 W2 V Q Wc r k)

end Cert.TilePay

end
-- ==== Proof.BlockValue.lean ====
/-
  What the body leaves in the output's staging buffer, as one function of the buffer's index.

  The body stores twice, rows 0 to 127 and rows 128 to 255 of the 256-row buffer. Both stores are pieces of ONE function of
  the buffer's index `(p, f)`: the row function of row `p` of the two input blocks' sum, the gate block at row `p`, and the
  parameters.
-/
import proofs.«172532_j77592879170023_2_alg».proof.Proof.Gen.KernelIdeal.Frame
import proofs.«172532_j77592879170023_2_alg».proof.Proof.TilePay
import Idealize.ShloMosaic.Lib.Pipeline.Value

set_option maxRecDepth 16384

noncomputable section

namespace Cert.BlockValue

open Idealize.ShloMosaic Idealize.ShloMosaic.TcCoe Idealize.SL.Sem Idealize.ShloMosaic.ValueIdx
open Cert.KernelIdeal Cert.KernelIdeal.Facts₀ Cert.KernelIdeal.Facts Cert.KernelIdeal.Gen Cert.RowMath Cert.TilePay

/-- The block's function: at `(p, f)` the row function of row `p`. -/
def blockFn (x0 x1 : Vec Ideal S256x1024 .f32) (x2 : Vec Ideal S256x1 .f32) (x3 x4 x5 x6 : Vec Ideal S1024 .f32) (x7 : Vec Ideal S1024x4096 .bf16) (x8 : Vec Ideal S4096 .f32) (x9 : Vec Ideal S4096x1024 .bf16) (x10 : Vec Ideal S1024 .f32) : S256x1024.Idx → EReal := fun y =>
  row normK (fun k => x0 (ix2 (show Fin 256 from y 0) k) + x1 (ix2 (show Fin 256 from y 0) k)) (x2 (ix2 (show Fin 256 from y 0) (0 : Fin 1)))
      (fun k => x3 (ix1 k)) (fun k => x4 (ix1 k)) (fun k => x5 (ix1 k)) (fun k => x6 (ix1 k)) (fun k j => x7 (ix2 k j)) (fun j => x8 (ix1 j))
      (fun j f => x9 (ix2 j f)) (fun k => x10 (ix1 k)) (show Fin 1024 from y 1)

theorem blockFn_at (x0 x1 : Vec Ideal S256x1024 .f32) (x2 : Vec Ideal S256x1 .f32) (x3 x4 x5 x6 : Vec Ideal S1024 .f32) (x7 : Vec Ideal S1024x4096 .bf16) (x8 : Vec Ideal S4096 .f32) (x9 : Vec Ideal S4096x1024 .bf16) (x10 : Vec Ideal S1024 .f32) (p : Fin 256) (f : Fin 1024) :
    blockFn x0 x1 x2 x3 x4 x5 x6 x7 x8 x9 x10 (ix2 p f) = row normK (fun k => x0 (ix2 p k) + x1 (ix2 p k)) (x2 (ix2 p (0 : Fin 1)))
      (fun k => x3 (ix1 k)) (fun k => x4 (ix1 k)) (fun k => x5 (ix1 k)) (fun k => x6 (ix1 k)) (fun k j => x7 (ix2 k j)) (fun j => x8 (ix1 j))
      (fun j f => x9 (ix2 j f)) (fun k => x10 (ix1 k)) f := rfl

/-- Rows 0 to 127 of the buffer, entry by entry. -/
theorem emb_lo (r : Fin 128) (f : Fin 1024) : r0_4.emb (ix2 r f) = ix2 (⟨r.val, by omega⟩ : Fin 256) f := by
  funext a; apply Fin.ext
  match a with
  | ⟨0, _⟩ => show 0 + 1 * r.val = r.val; omega
  | ⟨1, _⟩ => show 0 + 1 * f.val = f.val; omega

theorem emb_lo_col (r : Fin 128) (u : Fin 1) : r0_5.emb (ix2 r u) = ix2 (⟨r.val, by omega⟩ : Fin 256) u := by
  funext a; apply Fin.ext
  match a with
  | ⟨0, _⟩ => show 0 + 1 * r.val = r.val; omega
  | ⟨1, _⟩ => show 0 + 1 * u.val = u.val; omega

/-- Rows 128 to 255. -/
theorem emb_hi (r : Fin 128) (f : Fin 1024) : r0_6.emb (ix2 r f) = ix2 (⟨128 + r.val, by omega⟩ : Fin 256) f := by
  funext a; apply Fin.ext
  match a with
  | ⟨0, _⟩ => show 128 + 1 * r.val = 128 + r.val; omega
  | ⟨1, _⟩ => show 0 + 1 * f.val = f.val; omega

theorem emb_hi_col (r : Fin 128) (u : Fin 1) : r0_7.emb (ix2 r u) = ix2 (⟨128 + r.val, by omega⟩ : Fin 256) u := by
  funext a; apply Fin.ext
  match a with
  | ⟨0, _⟩ => show 128 + 1 * r.val = 128 + r.val; omega
  | ⟨1, _⟩ => show 0 + 1 * u.val = u.val; omega

theorem hz1 : (![0] : Fin 1 → Nat) = fun _ => 0 := funext fun a => by fin_cases a; rfl
theorem hz2 : (![0, 0] : Fin 2 → Nat) = fun _ => 0 := funext fun a => by fin_cases a <;> rfl

/-- THE BUFFER after the body is the block's function of the input blocks. -/
theorem out_block (x0 x1 : Vec Ideal S256x1024 .f32) (x2 : Vec Ideal S256x1 .f32) (x3 x4 x5 x6 : Vec Ideal S1024 .f32) (x7 : Vec Ideal S1024x4096 .bf16) (x8 : Vec Ideal S4096 .f32) (x9 : Vec Ideal S4096x1024 .bf16) (x10 : Vec Ideal S1024 .f32) : out0_11 (F := Ideal) x0 x1 x2 x3 x4 x5 x6 x7 x8 x9 x10 = blockFn x0 x1 x2 x3 x4 x5 x6 x7 x8 x9 x10 := by
  have l3 : View.ld x3 r0_0 = x3 := View.ld_unit_zero hz1 _ x3
  have l4 : View.ld x4 r0_0 = x4 := View.ld_unit_zero hz1 _ x4
  have l5 : View.ld x5 r0_0 = x5 := View.ld_unit_zero hz1 _ x5
  have l6 : View.ld x6 r0_0 = x6 := View.ld_unit_zero hz1 _ x6
  have l10 : View.ld x10 r0_0 = x10 := View.ld_unit_zero hz1 _ x10
  have l8 : View.ld x8 r0_1 = x8 := View.ld_unit_zero hz1 _ x8
  have l7 : View.ld x7 r0_2 = x7 := View.ld_unit_zero hz2 _ x7
  have l9 : View.ld x9 r0_3 = x9 := View.ld_unit_zero hz2 _ x9
  funext y
  unfold out0_11
  rw [l3, l4, l5, l6, l10, l8, l7, l9]
  refine View.canon_apply_of_pieces (Val := Elt Ideal) (e := .f32) (blockFn x0 x1 x2 x3 x4 x5 x6 x7 x8 x9 x10) _ ?_ y (cover0_11 _ _ y)
  intro p hp
  simp only [List.mem_cons, List.mem_nil_iff, or_false] at hp
  rcases hp with rfl | rfl
  · intro (x : S128x1024.Idx)
    obtain ⟨r, f, rfl⟩ : ∃ (r : Fin 128) (f : Fin 1024), x = ix2 r f := ⟨x 0, x 1, eq_ix2 x⟩
    show _ = blockFn x0 x1 x2 x3 x4 x5 x6 x7 x8 x9 x10 (r0_6.emb (ix2 r f))
    rw [emb_hi, blockFn_at]
    refine (second_tile x3 x4 x5 x6 x8 x10 x7 x9 (View.ld x0 r0_6) (View.ld x1 r0_6) (View.ld x2 r0_7) r f).trans ?_
    show row normK (fun k => x0 (r0_6.emb (ix2 r k)) + x1 (r0_6.emb (ix2 r k))) (x2 (r0_7.emb (ix2 r (0 : Fin 1))))
      (fun k => x3 (ix1 k)) (fun k => x4 (ix1 k)) (fun k => x5 (ix1 k)) (fun k => x6 (ix1 k)) (fun k j => x7 (ix2 k j)) (fun j => x8 (ix1 j))
      (fun j f => x9 (ix2 j f)) (fun k => x10 (ix1 k)) f = _
    simp only [emb_hi, emb_hi_col]
  · intro (x : S128x1024.Idx)
    obtain ⟨r, f, rfl⟩ : ∃ (r : Fin 128) (f : Fin 1024), x = ix2 r f := ⟨x 0, x 1, eq_ix2 x⟩
    show _ = blockFn x0 x1 x2 x3 x4 x5 x6 x7 x8 x9 x10 (r0_4.emb (ix2 r f))
    rw [emb_lo, blockFn_at]
    refine (first_tile x3 x4 x5 x6 x8 x10 x7 x9 (View.ld x0 r0_4) (View.ld x1 r0_4) (View.ld x2 r0_5) r f).trans ?_
    show row normK (fun k => x0 (r0_4.emb (ix2 r k)) + x1 (r0_4.emb (ix2 r k))) (x2 (r0_5.emb (ix2 r (0 : Fin 1))))
      (fun k => x3 (ix1 k)) (fun k => x4 (ix1 k)) (fun k => x5 (ix1 k)) (fun k => x6 (ix1 k)) (fun k j => x7 (ix2 k j)) (fun j => x8 (ix1 j))
      (fun j f => x9 (ix2 j f)) (fun k => x10 (ix1 k)) f = _
    simp only [emb_lo, emb_lo_col]

end Cert.BlockValue

end
-- ==== Proof.KernelArray.lean ====
/-
  The kernel's results as functions of the arguments.

  Every point writes back its block of ONE function of the output array's index: at `(i, f)` the row function of row `i` of the
  region's operands. The 72 blocks cover the array, so the array ends holding that function; the host then splits the row axis back
  into `(b, s)`, row `36 b + s`. Read through the host operations before the region (merged axes, the gate column, the recast
  weights), the first result at `(b, s, f)` is the row function of row `(b, s)` of `v + q`, the gate weight at `(b, s)` and the
  parameters. The second result is computed before the region and nothing after touches it.
-/
import proofs.«172532_j77592879170023_2_alg».proof.Proof.Gen.KernelIdeal.Frame
import proofs.«172532_j77592879170023_2_alg».proof.Proof.BlockReads
import proofs.«172532_j77592879170023_2_alg».proof.Proof.BlockValue
import proofs.«172532_j77592879170023_2_alg».proof.Proof.HostArrays
import Idealize.ShloMosaic.Lib.Pipeline.Value
import Idealize.ShloMosaic.Lib.StableHlo.Run

set_option maxRecDepth 16384

noncomputable section

namespace Cert.KernelArray

open Idealize.ShloMosaic Idealize.ShloMosaic.TcCoe Idealize.SL.Sem Idealize.ShloMosaic.ValueIdx Idealize.ShloMosaic.StableHlo
open Cert.KernelIdeal Cert.KernelIdeal.Facts₀ Cert.KernelIdeal.Facts Cert.KernelIdeal.Gen
open Cert.RowMath Cert.BlockReads Cert.BlockValue Cert.HostArrays

variable (m : (ℓ : Loc nD τ sig) → Buf (Elt Ideal) ℓ) (ρ : Dev nD → PrngReg)

/-! ## The output array of the region -/

/-- Row `q` of the region's output, from the region's operand arrays: the row function of row `q` of the two inputs' sum, the gate
    column at `q` and the parameters. -/
def rowsFn (A0 A1 : S18432x1024.Idx → EReal) (A2 : S18432x1.Idx → EReal) (P3 P4 P5 P6 : S1024.Idx → EReal) (P7 : S1024x4096.Idx → EReal) (P8 : S4096.Idx → EReal) (P9 : S4096x1024.Idx → EReal) (P10 : S1024.Idx → EReal) (q : Fin 18432) : Fin 1024 → EReal :=
  row normK (fun k => A0 (ix2 q k) + A1 (ix2 q k)) (A2 (ix2 q (0 : Fin 1))) (fun k => P3 (ix1 k)) (fun k => P4 (ix1 k)) (fun k => P5 (ix1 k)) (fun k => P6 (ix1 k)) (fun k j => P7 (ix2 k j)) (fun j => P8 (ix1 j)) (fun j f => P9 (ix2 j f)) (fun k => P10 (ix1 k))

/-- The array's function: at `(i, f)` the row function of row `i` of the region's operands. -/
def arrayFn (c : Dev nD) : S18432x1024.Idx → EReal := fun i =>
  rowsFn (V m c main_v40) (V m c main_v41) (V m c main_v42) (V m c main_arg4) (V m c main_arg5) (V m c main_arg6) (V m c main_arg7) (V m c main_v43) (V m c main_arg9) (V m c main_v44) (V m c main_arg11) (show Fin 18432 from i 0) (show Fin 1024 from i 1)

theorem arrayFn_at (c : Dev nD) (q : Fin 18432) (f : Fin 1024) :
    arrayFn m c (ix2 q f) = rowsFn (V m c main_v40) (V m c main_v41) (V m c main_v42) (V m c main_arg4) (V m c main_arg5) (V m c main_arg6) (V m c main_arg7) (V m c main_v43) (V m c main_arg9) (V m c main_v44) (V m c main_arg11) q f := rfl

/-- Entry `(p, f)` of point `t`'s output block sits at row `256 t + p` of the array. -/
theorem emb_out (t : Fin cfg0.N) (p : Fin 256) (f : Fin 1024) :
    ((cfg0.win 11).blk t).view.emb (ix2 p f) = ix2 (rowAt t p) f := by
  obtain ⟨e0, e1, e2, e3, e4, e5, e6, e7, e8, e9, e10, e11, e12, e13, e14, e15, e16, e17⟩ := idx_facts t
  funext a; apply Fin.ext
  match a with
  | ⟨0, _⟩ => show win0_11.index t (0 : Fin 2) * 256 + 1 * p.val = t.val * 256 + p.val; omega
  | ⟨1, _⟩ => show win0_11.index t (1 : Fin 2) * 1024 + 1 * f.val = f.val; omega

/-- WHAT POINT `t` WRITES BACK is block `t` of the array's function. -/
theorem flushed_eq (c : Dev nD) (t : Fin cfg0.N) :
    (dats m 0 c).flushed 11 t = ((cfg0.win 11).blk t).view.read (Elt Ideal) (arrayFn m c) := by
  show (cfg0.win 11).cut (grid0.coords t) ((dats m 0 c).after 11 t) = _
  rw [after0_11, out_block]
  funext j
  obtain ⟨p, f, rfl⟩ : ∃ (p : Fin 256) (f : Fin 1024), j = ix2 p f := ⟨j 0, j 1, eq_ix2 j⟩
  show blockFn (iblk m c 0 t) (iblk m c 1 t) (iblk m c 2 t) (iblk m c 3 t) (iblk m c 4 t) (iblk m c 5 t) (iblk m c 6 t) (iblk m c 7 t)
      (iblk m c 8 t) (iblk m c 9 t) (iblk m c 10 t) (ix2 p f) = arrayFn m c (((cfg0.win 11).blk t).view.emb (ix2 p f))
  rw [emb_out, blockFn_at, arrayFn_at]
  unfold rowsFn
  simp only [read0, read1, read2, read3, read4, read5, read6, read7, read8, read9, read10] <;> rfl

/-- An index of the array is in point `t`'s block iff each coordinate is in the block's range on its axis. -/
theorem mem_blk (t : Fin cfg0.N) (i : S18432x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v45).slice (win0_11.rect t)).set ↔ _
  rw [View.set_slice_whole, Rect.mem_set_unit]
  exact Iff.rfl

/-- The blocks cover the array: row `i` is in block `i / 256`. -/
theorem cover (i : S18432x1024.Idx) : ∃ t : Fin cfg0.N, (cfg0.win 11).flush t = true ∧ i ∈ ((cfg0.win 11).blk t).view.set := by
  have hi0 : (i 0).val < 18432 := (i 0).isLt
  have hi1 : (i 1).val < 1024 := (i 1).isLt
  have hlt : (i 0).val / 256 < cfg0.N := by rw [show cfg0.N = 72 from N_0]; omega
  obtain ⟨t, ht⟩ : ∃ t : Fin cfg0.N, t.val = (i 0).val / 256 := ⟨⟨(i 0).val / 256, hlt⟩, rfl⟩
  obtain ⟨e0, e1, e2, e3, e4, e5, e6, e7, e8, e9, e10, e11, e12, e13, e14, e15, e16, e17⟩ := idx_facts t
  refine ⟨t, flush0_11 t, ?_⟩
  rw [mem_blk]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- THE ARRAY after the region holds its function. -/
theorem final (c : Dev nD) : (dats m 0 c).arrAt 11 cfg0.N = arrayFn m c :=
  (dats m 0 c).arrAt_eq_of_cover 11 (arrayFn m c) (fun t _ => flushed_eq m c t) cover

/-! ## The host operation after the region, and the second result -/

/-- The first result: the array with its row axis split back into two. -/
theorem out_eq (c : Dev nD) :
    (Pipeline.afterTail₀ cfgs (dats m) 0 (V0 m) [hostOps1] c main_v46 : S512x36x1024.Idx → EReal)
      = shapeCast S512x36x1024 (arrayFn m c) Facts₀.shapeCasts_S18432x1024_S512x36x1024 := by
  unfold Pipeline.afterTail₀
  show StableHlo.after hostOps1 _ (Proc.devRef .tc main_v46) = _
  after_results
  exact congrArg (fun A => shapeCast S512x36x1024 A Facts₀.shapeCasts_S18432x1024_S512x36x1024)
    ((Pipeline.withArrays_arr spec0 launch0.win.arr_inj c _ _ 11).trans (final m c))

/-- The second result is what the host computed before the region. -/
theorem ru_kept (c : Dev nD) :
    Pipeline.afterTail₀ cfgs (dats m) 0 (V0 m) [hostOps1] c main_v30 = V m c main_v30 := by
  unfold Pipeline.afterTail₀
  rw [StableHlo.after_of_forall_not_mem (b := Proc.devRef .tc main_v30) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v30 (by exact (by decide : ∀ w, Pipeline.arrRef spec0 w ≠ main_v30))]

/-! ## Rows `(b, s)` and row `36 b + s` -/

/-- Row `(b, s)` of a `[512, 36, …]` array is row `36 b + s` of it with the two leading axes merged. -/
def flat (b : Fin 512) (s : Fin 36) : Fin 18432 := ⟨b.val * 36 + s.val, by have := b.isLt; have := s.isLt; omega⟩

theorem merged_rows (X : S512x36x1024.Idx → EReal) (b : Fin 512) (s : Fin 36) (k : Fin 1024) :
    shapeCast S18432x1024 X Facts₀.shapeCasts_S512x36x1024_S18432x1024 (ix2 (flat b s) k) = X (ix3 b s k) :=
  shapeCast_apply X _ _ _ (by rw [Shape.rowMajor_val_three, Shape.rowMajor_val_two]; rfl)

theorem merged_gate (W : S512x36.Idx → EReal) (b : Fin 512) (s : Fin 36) (u : Fin 1) :
    shapeCast S18432x1 W Facts₀.shapeCasts_S512x36_S18432x1 (ix2 (flat b s) u) = W (ix2 b s) :=
  shapeCast_apply W _ _ _ (by
    have hu : u.val = 0 := by omega
    rw [Shape.rowMajor_val_two, Shape.rowMajor_val_two]
    show b.val * 36 + s.val = (b.val * 36 + s.val) * 1 + u.val
    omega)

theorem split_rows (A : S18432x1024.Idx → EReal) (b : Fin 512) (s : Fin 36) (f : Fin 1024) :
    shapeCast S512x36x1024 A Facts₀.shapeCasts_S18432x1024_S512x36x1024 (ix3 b s f) = A (ix2 (flat b s) f) :=
  shapeCast_apply A _ _ _ (by rw [Shape.rowMajor_val_three, Shape.rowMajor_val_two]; rfl)

/-- Row `(b, s)` of the first result, from the arguments and a gate array. -/
def resultRow (X0 X1 : S512x36x1024.Idx → EReal) (Wg : S512x36.Idx → EReal) (P3 P4 P5 P6 : S1024.Idx → EReal) (P7 : S1024x4096.Idx → EReal) (P8 : S4096.Idx → EReal) (P9 : S4096x1024.Idx → EReal) (P10 : S1024.Idx → EReal) (b : Fin 512) (s : Fin 36) : Fin 1024 → EReal :=
  row normK (fun k => X0 (ix3 b s k) + X1 (ix3 b s k)) (Wg (ix2 b s)) (fun k => P3 (ix1 k)) (fun k => P4 (ix1 k)) (fun k => P5 (ix1 k)) (fun k => P6 (ix1 k)) (fun k j => P7 (ix2 k j)) (fun j => P8 (ix1 j)) (fun j f => P9 (ix2 j f)) (fun k => P10 (ix1 k))

/-- Row `36 b + s` of the region's output over merged operands is row `(b, s)` over the operands themselves. -/
theorem rowsFn_merged (X0 X1 : S512x36x1024.Idx → EReal) (Wg : S512x36.Idx → EReal) (P3 P4 P5 P6 : S1024.Idx → EReal) (P7 : S1024x4096.Idx → EReal) (P8 : S4096.Idx → EReal) (P9 : S4096x1024.Idx → EReal) (P10 : S1024.Idx → EReal) (b : Fin 512) (s : Fin 36) :
    rowsFn (shapeCast S18432x1024 X0 Facts₀.shapeCasts_S512x36x1024_S18432x1024) (shapeCast S18432x1024 X1 Facts₀.shapeCasts_S512x36x1024_S18432x1024)
        (shapeCast S18432x1 Wg Facts₀.shapeCasts_S512x36_S18432x1) P3 P4 P5 P6 P7 P8 P9 P10 (flat b s)
      = resultRow X0 X1 Wg P3 P4 P5 P6 P7 P8 P9 P10 b s := by
  unfold rowsFn resultRow
  simp only [merged_rows, merged_gate]

/-- THE FIRST RESULT at `(b, s, f)`: the row function, in the kernel's spelling, of row `(b, s)` of `v + q`, the kernel's own
    gate weight at `(b, s)` and the parameters. -/
theorem out_at (c : Dev nD) (b : Fin 512) (s : Fin 36) (f : Fin 1024) :
    (Pipeline.afterTail₀ cfgs (dats m) 0 (V0 m) [hostOps1] c main_v46 : S512x36x1024.Idx → EReal) (ix3 b s f)
      = resultRow (m ((c : Thread nD τ).loc main_arg0)) (m ((c : Thread nD τ).loc main_arg1)) (V m c main_v39) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b s f := by
  rw [out_eq, split_rows, arrayFn_at, rows_v, rows_q, rows_w, weights1, weights2, V_main_arg4, V_main_arg5, V_main_arg6, V_main_arg7,
    V_main_arg9, V_main_arg11]
  exact congrFun (rowsFn_merged (m ((c : Thread nD τ).loc main_arg0)) (m ((c : Thread nD τ).loc main_arg1)) (V m c main_v39) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b s) f

/-! ## The run, read -/

/-- The kernel's program run: both results named, the arguments unchanged. -/
theorem run : θ_run defs (onTc (τ := τ) (main (F := Ideal))) ⟨m, fun _ => 0, ρ⟩ (fun r => ∀ c : Dev nD,
      r.2.mem ((c.tc : Thread nD τ).loc main_v46) = Pipeline.afterTail₀ cfgs (dats m) 0 (V0 m) [hostOps1] c main_v46
      ∧ r.2.mem ((c.tc : Thread nD τ).loc main_v30) = V m c main_v30
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v46 (Pipeline.mem_restRefs_of main_v46 (by decide) (by decide)),
      ((h c).2 main_v30 (Pipeline.mem_restRefs_of main_v30 (by decide) (by decide))).trans (ru_kept m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      (((h c).2 main_arg8 (Pipeline.mem_restRefs_of main_arg8 (by decide) (by decide))).trans (W_main_arg8 m (dats m) c)),
      ((h c).1 8).trans (((dats m 0 c).arrAt_in 8 rfl _).trans ((A_eq m c 8).trans (V_main_arg9 m c))),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c)))⟩) (run_main m ρ)

end Cert.KernelArray

end
-- ==== Proof.lean ====
/-
  The kernel fuses, per row of 1024 entries, a layer norm of `v + q`, a scaling by a per-row gate weight, a two-layer
  feed-forward block with a ReLU, a residual sum and a second layer norm; the gate weights and the second result are computed
  by host operations that are the reference's own. The two programs differ in one place, twice: the kernel multiplies by the
  reciprocal root of `variance + ε` where the reference divides by the root. On the extended reals the two agree whenever
  `variance + ε` is positive, and it always is (Proof/RowMath.lean), so the equality of results needs no finiteness of the
  inputs: the precondition is only passed along. Sums in another order, another tiling and changes of float format are no
  difference at the exact values.

  The pieces: Proof/RowMath.lean (the row function and the law), Proof/RefStages.lean (the reference's first result at an entry
  is the row function in its spelling), Proof/TilePay.lean over Proof/TileRows.lean (each of the body's two stores is the row
  function in the kernel's spelling), Proof/BlockValue.lean, Proof/BlockReads.lean and Proof/KernelArray.lean (from the stores to
  the whole array and through the host operations around the region), Proof/HostArrays.lean (the gate array and the second
  result are the reference's arrays). Here: the two first results agree entry by entry, and the five claims.
-/
import proofs.«172532_j77592879170023_2_alg».proof.Defs
import proofs.«172532_j77592879170023_2_alg».proof.Proof.Gen.Kernel
import proofs.«172532_j77592879170023_2_alg».proof.Proof.Gen.Kernel.Skeleton
import proofs.«172532_j77592879170023_2_alg».proof.Proof.Gen.Kernel.Launch
import proofs.«172532_j77592879170023_2_alg».proof.Proof.Gen.Kernel.Points
import proofs.«172532_j77592879170023_2_alg».proof.Proof.Gen.Kernel.Frame
import proofs.«172532_j77592879170023_2_alg».proof.Proof.Gen.KernelIdeal
import proofs.«172532_j77592879170023_2_alg».proof.Proof.Gen.KernelIdeal.Skeleton
import proofs.«172532_j77592879170023_2_alg».proof.Proof.Gen.KernelIdeal.Launch
import proofs.«172532_j77592879170023_2_alg».proof.Proof.Gen.KernelIdeal.Points
import proofs.«172532_j77592879170023_2_alg».proof.Proof.Gen.KernelIdeal.Frame
import proofs.«172532_j77592879170023_2_alg».proof.Proof.Gen.ReferenceIdeal
import proofs.«172532_j77592879170023_2_alg».proof.Proof.Gen.ReferenceIdeal.Run
import proofs.«172532_j77592879170023_2_alg».proof.Proof.Gen.ReferenceIdeal.Read
import proofs.«172532_j77592879170023_2_alg».proof.Proof.Gen.Pre_finite_inputs
import proofs.«172532_j77592879170023_2_alg».proof.Proof.RowMath
import proofs.«172532_j77592879170023_2_alg».proof.Proof.RefStages
import proofs.«172532_j77592879170023_2_alg».proof.Proof.HostArrays
import proofs.«172532_j77592879170023_2_alg».proof.Proof.KernelArray
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- THE FIRST RESULTS AGREE: the reference's array of the kernel's arguments is, entry by entry, the array the kernel's
    program ends with. At `(b, s, f)` both are the row function of row `(b, s)` of `v + q`, of the gate weight at `(b, s)` (one
    array on both sides) and of the parameters; the two spellings of the norm are one function. -/
theorem first_results_agree (m : (ℓ : Loc Cert.KernelIdeal.nD Cert.KernelIdeal.τ Cert.KernelIdeal.sig) → Buf (Elt Ideal) ℓ)
    (c : Dev Cert.KernelIdeal.nD) :
    (Cert.ReferenceIdeal.Read.val_main_v101 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11))
        : Cert.ReferenceIdeal.S512x36x1024.Idx → EReal)
      = Pipeline.afterTail₀ Cert.KernelIdeal.cfgs (Cert.KernelIdeal.Gen.dats m) 0 (Cert.KernelIdeal.Gen.V0 m)
          [Cert.KernelIdeal.Gen.hostOps1] c Cert.KernelIdeal.main_v46 := by
  funext i
  obtain ⟨b, s, f, rfl⟩ : ∃ (b : Fin 512) (s : Fin 36) (f : Fin 1024), i = ix3 b s f := ⟨i 0, i 1, i 2, eq_ix3 i⟩
  refine (Cert.RefStages.result_at (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) b s f).trans ?_
  refine Eq.trans ?_ (Cert.KernelArray.out_at m c b s f).symm
  unfold Cert.KernelArray.resultRow
  rw [Cert.HostArrays.gate_eq m c, Cert.RowMath.row_normK_eq_row_normR]

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing in this kernel. -/
theorem preserves : Cert.preserves_Kernel_KernelIdeal := trivial

/-- Both programs run; the kernel's ends with its two results at the arrays named here, and the reference's, from arguments
    that agree, with the same two arrays: the first by `first_results_agree`, the second because the kernel's host
    operations compute the reference's own array. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v46,
    fun c => Cert.KernelIdeal.Gen.V m c Cert.KernelIdeal.main_v30, Cert.KernelArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11⟩ := hagree c
    rw [Cert.ReferenceIdeal.Read.val_main_v101_eq, h0, h1, h2, h3, h4, h5, h6, h7, h8, h9, h10, h11]
    exact first_results_agree m c
  · obtain ⟨-, -, h2, h3, -⟩ := hagree c
    rw [Cert.ReferenceIdeal.Read.val_main_v55_eq, h2, h3]
    exact (Cert.HostArrays.ru_out_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
